-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S40x64 : Shape := ⟨2, ![40, 64]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x64 .f32) (main_arg1 : IVec S2x1200000 32) (main_arg2 : FVec F S40x64 .f32) (main_arg3 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S40x64 .f32 := Host.absf main_arg2
  let main_cst_0 : FVec F S_ .f32 := constant S_ .f32 0x7F800000#32
  let main_v5 : FVec F S40x64 .f32 := broadcastInDim S40x64 ![] bcast_S_S40x64 main_cst_0
  let main_v6 : IVec S40x64 1 := cmpf .olt main_v4 main_v5
  let main_c_1 : IVec S_ 1 := constantI S_ 1 1#1
  let main_v7 : IVec S_ 1 := (fun x v => Host.reduce IntOp.andi x v reducesTo_S40x64_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x64 : Shape := ⟨2, ![100000, 64]⟩
abbrev S2x1200000 : Shape := ⟨2, ![2, 1200000]⟩
abbrev S40x64 : Shape := ⟨2, ![40, 64]⟩
abbrev S40 : Shape := ⟨1, ![40]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S64x40 : Shape := ⟨2, ![64, 40]⟩
abbrev S1x40 : Shape := ⟨2, ![1, 40]⟩
abbrev S100000x40 : Shape := ⟨2, ![100000, 40]⟩
abbrev S10000x64 : Shape := ⟨2, ![10000, 64]⟩
abbrev S10000x40 : Shape := ⟨2, ![10000, 40]⟩
abbrev S10000 : Shape := ⟨1, ![10000]⟩
abbrev S10000x1 : Shape := ⟨2, ![10000, 1]⟩

abbrev nBuf : Space → Nat
  | .hbm => 79
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S40x64, .f32⟩
  | .hbm, ⟨3, _⟩ => ⟨S40, .f32⟩
  | .hbm, ⟨4, _⟩ => ⟨S100000, .i32⟩
  | .hbm, ⟨5, _⟩ => ⟨S1x1200000, .i32⟩
  | .hbm, ⟨6, _⟩ => ⟨S1200000, .i32⟩
  | .hbm, ⟨7, _⟩ => ⟨S1300000, .i32⟩
  | .hbm, ⟨8, _⟩ => ⟨S1x1200000, .i32⟩
  | .hbm, ⟨9, _⟩ => ⟨S1200000, .i32⟩
  | .hbm, ⟨10, _⟩ => ⟨S1300000, .i32⟩
  | .hbm, ⟨11, _⟩ => ⟨S_, .f32⟩
  | .hbm, ⟨12, _⟩ => ⟨S1300000, .f32⟩
  | .hbm, ⟨13, _⟩ => ⟨S_, .f32⟩
  | .hbm, ⟨14, _⟩ => ⟨S100000, .f32⟩
  | .hbm, ⟨15, _⟩ => ⟨S1300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1300000, .i32⟩
  | .hbm, ⟨27, _⟩ => ⟨S1300000, .i1⟩
  | .hbm, ⟨28, _⟩ => ⟨S_, .i32⟩
  | .hbm, ⟨29, _⟩ => ⟨S1300000, .i32⟩
  | .hbm, ⟨30, _⟩ => ⟨S1300000, .i32⟩
  | .hbm, ⟨31, _⟩ => ⟨S1300000, .i32⟩
  | .hbm, ⟨32, _⟩ => ⟨S1300000x1, .i32⟩
  | .hbm, ⟨33, _⟩ => ⟨S1300000, .f32⟩
  | .hbm, ⟨34, _⟩ => ⟨S_, .i32⟩
  | .hbm, ⟨35, _⟩ => ⟨S1300000, .i32⟩
  | .hbm, ⟨36, _⟩ => ⟨S1300000, .i1⟩
  | .hbm, ⟨37, _⟩ => ⟨S_, .i32⟩
  | .hbm, ⟨38, _⟩ => ⟨S1300000, .i32⟩
  | .hbm, ⟨39, _⟩ => ⟨S1300000, .i32⟩
  | .hbm, ⟨40, _⟩ => ⟨S1300000, .i32⟩
  | .hbm, ⟨41, _⟩ => ⟨S1300000x1, .i32⟩
  | .hbm, ⟨42, _⟩ => ⟨S1300000, .f32⟩
  | .hbm, ⟨43, _⟩ => ⟨S1300000, .f32⟩
  | .hbm, ⟨44, _⟩ => ⟨S_, .i32⟩
  | .hbm, ⟨45, _⟩ => ⟨S1300000, .i32⟩
  | .hbm, ⟨46, _⟩ => ⟨S1300000, .i1⟩
  | .hbm, ⟨47, _⟩ => ⟨S_, .i32⟩
  | .hbm, ⟨48, _⟩ => ⟨S1300000, .i32⟩
  | .hbm, ⟨49, _⟩ => ⟨S1300000, .i32⟩
  | .hbm, ⟨50, _⟩ => ⟨S1300000, .i32⟩
  | .hbm, ⟨51, _⟩ => ⟨S1300000x1, .i32⟩
  | .hbm, ⟨52, _⟩ => ⟨S1300000x64, .f32⟩
  | .hbm, ⟨53, _⟩ => ⟨S1300000x1, .f32⟩
  | .hbm, ⟨54, _⟩ => ⟨S1300000x64, .f32⟩
  | .hbm, ⟨55, _⟩ => ⟨S1300000x64, .f32⟩
  | .hbm, ⟨56, _⟩ => ⟨S_, .f32⟩
  | .hbm, ⟨57, _⟩ => ⟨S100000x64, .f32⟩
  | .hbm, ⟨58, _⟩ => ⟨S1300000x1, .i32⟩
  | .hbm, ⟨59, _⟩ => ⟨S100000x64, .f32⟩
  | .hbm, ⟨60, _⟩ => ⟨S_, .i32⟩
  | .hbm, ⟨61, _⟩ => ⟨S1300000, .i32⟩
  | .hbm, ⟨62, _⟩ => ⟨S1300000, .i1⟩
  | .hbm, ⟨63, _⟩ => ⟨S_, .i32⟩
  | .hbm, ⟨64, _⟩ => ⟨S1300000, .i32⟩
  | .hbm, ⟨65, _⟩ => ⟨S1300000, .i32⟩
  | .hbm, ⟨66, _⟩ => ⟨S1300000, .i32⟩
  | .hbm, ⟨67, _⟩ => ⟨S1300000x1, .i32⟩
  | .hbm, ⟨68, _⟩ => ⟨S1300000x64, .f32⟩
  | .hbm, ⟨69, _⟩ => ⟨S1300000x1, .f32⟩
  | .hbm, ⟨70, _⟩ => ⟨S1300000x64, .f32⟩
  | .hbm, ⟨71, _⟩ => ⟨S1300000x64, .f32⟩
  | .hbm, ⟨72, _⟩ => ⟨S_, .f32⟩
  | .hbm, ⟨73, _⟩ => ⟨S100000x64, .f32⟩
  | .hbm, ⟨74, _⟩ => ⟨S1300000x1, .i32⟩
  | .hbm, ⟨75, _⟩ => ⟨S100000x64, .f32⟩
  | .hbm, ⟨76, _⟩ => ⟨S64x40, .f32⟩
  | .hbm, ⟨77, _⟩ => ⟨S1x40, .f32⟩
  | .hbm, ⟨78, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S64x40, .f32⟩
  | .local _ .vmem, ⟨3, _⟩ => ⟨S1x40, .f32⟩
  | .local _ .vmem, ⟨4, _⟩ => ⟨S10000x40, .f32⟩
  | .local _ .vmem, ⟨5, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  transposes_S40x64_S64x40_1_0 : S40x64.Transposes [1, 0] S64x40
  shapeCasts_S40_S1x40 : S40.ShapeCasts S1x40
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x40.size a ≤ S64x40.size a
  hwx0_1 : ∀ i : grid0.Coords, EltTy.bits .f32 = 32 ∨ (Rect.block (s := S64x40) S64x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x40.size a ≤ S100000x40.size a
  hwx0_3 : ∀ i : grid0.Coords, EltTy.bits .f32 = 32 ∨ (Rect.block (s := S100000x40) S10000x40.size (cc0_transform_3 i) (hinb0_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_v55) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S64x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S10000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S40x64 : Shape := ⟨2, ![40, 64]⟩
abbrev S40 : Shape := ⟨1, ![40]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S64x40 : Shape := ⟨2, ![64, 40]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S40x64, .f32⟩
  | .hbm, ⟨3, _⟩ => ⟨S40, .f32⟩
  | .hbm, ⟨4, _⟩ => ⟨S100000, .i32⟩
  | .hbm, ⟨5, _⟩ => ⟨S1x1200000, .i32⟩
  | .hbm, ⟨6, _⟩ => ⟨S1200000, .i32⟩
  | .hbm, ⟨7, _⟩ => ⟨S1300000, .i32⟩
  | .hbm, ⟨8, _⟩ => ⟨S1x1200000, .i32⟩
  | .hbm, ⟨9, _⟩ => ⟨S1200000, .i32⟩
  | .hbm, ⟨10, _⟩ => ⟨S1300000, .i32⟩
  | .hbm, ⟨11, _⟩ => ⟨S_, .f32⟩
  | .hbm, ⟨12, _⟩ => ⟨S1300000, .f32⟩
  | .hbm, ⟨13, _⟩ => ⟨S_, .f32⟩
  | .hbm, ⟨14, _⟩ => ⟨S100000, .f32⟩
  | .hbm, ⟨15, _⟩ => ⟨S1300000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1300000, .i32⟩
  | .hbm, ⟨27, _⟩ => ⟨S1300000, .i1⟩
  | .hbm, ⟨28, _⟩ => ⟨S_, .i32⟩
  | .hbm, ⟨29, _⟩ => ⟨S1300000, .i32⟩
  | .hbm, ⟨30, _⟩ => ⟨S1300000, .i32⟩
  | .hbm, ⟨31, _⟩ => ⟨S1300000, .i32⟩
  | .hbm, ⟨32, _⟩ => ⟨S1300000x1, .i32⟩
  | .hbm, ⟨33, _⟩ => ⟨S1300000, .f32⟩
  | .hbm, ⟨34, _⟩ => ⟨S_, .i32⟩
  | .hbm, ⟨35, _⟩ => ⟨S1300000, .i32⟩
  | .hbm, ⟨36, _⟩ => ⟨S1300000, .i1⟩
  | .hbm, ⟨37, _⟩ => ⟨S_, .i32⟩
  | .hbm, ⟨38, _⟩ => ⟨S1300000, .i32⟩
  | .hbm, ⟨39, _⟩ => ⟨S1300000, .i32⟩
  | .hbm, ⟨40, _⟩ => ⟨S1300000, .i32⟩
  | .hbm, ⟨41, _⟩ => ⟨S1300000x1, .i32⟩
  | .hbm, ⟨42, _⟩ => ⟨S1300000, .f32⟩
  | .hbm, ⟨43, _⟩ => ⟨S1300000, .f32⟩
  | .hbm, ⟨44, _⟩ => ⟨S_, .i32⟩
  | .hbm, ⟨45, _⟩ => ⟨S1300000, .i32⟩
  | .hbm, ⟨46, _⟩ => ⟨S1300000, .i1⟩
  | .hbm, ⟨47, _⟩ => ⟨S_, .i32⟩
  | .hbm, ⟨48, _⟩ => ⟨S1300000, .i32⟩
  | .hbm, ⟨49, _⟩ => ⟨S1300000, .i32⟩
  | .hbm, ⟨50, _⟩ => ⟨S1300000, .i32⟩
  | .hbm, ⟨51, _⟩ => ⟨S1300000x1, .i32⟩
  | .hbm, ⟨52, _⟩ => ⟨S1300000x64, .f32⟩
  | .hbm, ⟨53, _⟩ => ⟨S1300000x1, .f32⟩
  | .hbm, ⟨54, _⟩ => ⟨S1300000x64, .f32⟩
  | .hbm, ⟨55, _⟩ => ⟨S1300000x64, .f32⟩
  | .hbm, ⟨56, _⟩ => ⟨S_, .f32⟩
  | .hbm, ⟨57, _⟩ => ⟨S100000x64, .f32⟩
  | .hbm, ⟨58, _⟩ => ⟨S1300000x1, .i32⟩
  | .hbm, ⟨59, _⟩ => ⟨S100000x64, .f32⟩
  | .hbm, ⟨60, _⟩ => ⟨S_, .i32⟩
  | .hbm, ⟨61, _⟩ => ⟨S1300000, .i32⟩
  | .hbm, ⟨62, _⟩ => ⟨S1300000, .i1⟩
  | .hbm, ⟨63, _⟩ => ⟨S_, .i32⟩
  | .hbm, ⟨64, _⟩ => ⟨S1300000, .i32⟩
  | .hbm, ⟨65, _⟩ => ⟨S1300000, .i32⟩
  | .hbm, ⟨66, _⟩ => ⟨S1300000, .i32⟩
  | .hbm, ⟨67, _⟩ => ⟨S1300000x1, .i32⟩
  | .hbm, ⟨68, _⟩ => ⟨S1300000x64, .f32⟩
  | .hbm, ⟨69, _⟩ => ⟨S1300000x1, .f32⟩
  | .hbm, ⟨70, _⟩ => ⟨S1300000x64, .f32⟩
  | .hbm, ⟨71, _⟩ => ⟨S1300000x64, .f32⟩
  | .hbm, ⟨72, _⟩ => ⟨S_, .f32⟩
  | .hbm, ⟨73, _⟩ => ⟨S100000x64, .f32⟩
  | .hbm, ⟨74, _⟩ => ⟨S1300000x1, .i32⟩
  | .hbm, ⟨75, _⟩ => ⟨S100000x64, .f32⟩
  | .hbm, ⟨76, _⟩ => ⟨S64x40, .f32⟩
  | .hbm, ⟨77, _⟩ => ⟨S100000x40, .f32⟩
  | .hbm, ⟨78, _⟩ => ⟨S1x40, .f32⟩
  | .hbm, ⟨79, _⟩ => ⟨S100000x40, .f32⟩
  | .hbm, ⟨80, _⟩ => ⟨S100000x40, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x40, .f32⟩
  | .hbm, ⟨88, _⟩ => ⟨S100000x40, .f32⟩
  | .hbm, ⟨89, _⟩ => ⟨S100000x40, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x40, .f32⟩
  | .hbm, ⟨95, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v61 : Ref sig .tc := ⟨.hbm, 95, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x40_S100000x40_1_0_0_1_n_n_wf : DotDims.WF S100000x64 S64x40 S100000x40 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.HeadSpec.lean ====
/-
  The classification head as ONE function of two arrays and the bias per class, index by index.

  For a node `r` and a class `c` the logit is the inner product of the node's 64 propagated features with column `c`
  of the transposed weights, plus the bias of `c`. A row of 40 logits is then normalised by log-softmax: its largest
  entry `M` (taken from −∞) is subtracted from every entry, and from that the logarithm of the sum of the exponentials
  of the shifted row. Both programs compute exactly this function; they differ only in how the row maximum is spelt
  (one of them takes the maximum with −∞ once more), which `max_fold_max_self` absorbs.
-/
import Idealize.ShloMosaic.PureOps.Ideal
import Idealize.ShloMosaic.PureOps.Ideal.Laws
import Idealize.ShloMosaic.Lib.ValueIdx
import Mathlib.Data.Finset.Fold

noncomputable section

namespace Cert.HeadSpec

open Idealize.ShloMosaic Idealize.ShloMosaic.ValueIdx

/-- The value a row maximum starts from: the float word of −∞ read as an extended real. It is the same word in both
    programs, so it is never evaluated. -/
abbrev start : EReal := Ideal.ofBits .f32 0xFF800000#32

/-- The largest of a row's 40 entries, folded from `start`. -/
def rowMax (L : Fin 40 → EReal) : EReal := (Finset.univ : Finset (Fin 40)).fold max start L

/-- Log-softmax of a row of 40 logits, at class `c`: the entry shifted by the row maximum, minus the logarithm of the
    sum of the exponentials of the shifted row. -/
def logSoftmax (L : Fin 40 → EReal) (c : Fin 40) : EReal :=
  (L c - rowMax L) - Ideal.log (∑ d : Fin 40, Ideal.exp (L d - rowMax L))

/-- The logit of node `r` for class `c`: features of `r` against column `c` of the transposed weights, plus the bias. -/
def logit (xp : (⟨2, ![100000, 64]⟩ : Shape).Idx → EReal) (wt : (⟨2, ![64, 40]⟩ : Shape).Idx → EReal)
    (b : Fin 40 → EReal) (r : Fin 100000) (c : Fin 40) : EReal :=
  (∑ k : Fin 64, xp (ix2 r k) * wt (ix2 k c)) + b c

/-- The whole result array: entry `(r, c)` is the log-softmax, at `c`, of node `r`'s row of logits. -/
def head (xp : (⟨2, ![100000, 64]⟩ : Shape).Idx → EReal) (wt : (⟨2, ![64, 40]⟩ : Shape).Idx → EReal)
    (b : Fin 40 → EReal) : (⟨2, ![100000, 40]⟩ : Shape).Idx → EReal :=
  fun i => logSoftmax (logit xp wt b (i 0)) (i 1)

/-- A fold of `max` that starts from `a` already dominates `a`: taking the maximum with `a` once more changes nothing.
    This is a lattice fact; it holds at the infinities too. -/
theorem max_fold_max_self {ι : Type*} (s : Finset ι) (a : EReal) (f : ι → EReal) :
    max a (s.fold max a f) = s.fold max a f :=
  max_eq_right ((Finset.le_fold_max a).mpr (Or.inl le_rfl))

/-- The head depends on its three arrays only through the logits. -/
theorem head_congr {xp xp' : (⟨2, ![100000, 64]⟩ : Shape).Idx → EReal} {wt wt' : (⟨2, ![64, 40]⟩ : Shape).Idx → EReal}
    {b b' : Fin 40 → EReal} (hx : xp = xp') (hw : wt = wt') (hb : b = b') :
    head xp wt b = head xp' wt' b' := by
  subst hx hw hb; rfl

end Cert.HeadSpec

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelRow.lean ====
/-
  What the kernel body computes from one block, read index by index.

  The body takes a block of 10000 rows of propagated features, the whole transposed weight matrix and the bias row. Its
  stored value is written here as a composition of three small functions of arrays — the block's logits, the shifted
  logits, and the log-softmax of the rows — which is the printed payload itself (`pay_eq`, by unfolding). Each is then
  read at `(p, c)`: the matrix product into a zero accumulator is the sum over the 64 features (the two conversions to
  bf16 are the identity on extended reals), the lane maximum is the fold of `max` from −∞ over the row, the lane sum is
  the sum over the row, and the column forms (a per-row value cast to a column and repeated along the row) read the
  row's value. So the body's value at `(p, c)` is `Cert.HeadSpec.logSoftmax` of row `p`'s logits at `c`.
-/
import proofs.«119533_j84035330114212_1_alg».proof.Proof.Gen.KernelIdeal.Skeleton
import proofs.«119533_j84035330114212_1_alg».proof.Proof.HeadSpec
import proofs.«119533_j84035330114212_1_alg».proof.Proof.LibKeepdims
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen
open Idealize.ShloMosaic Idealize.ShloMosaic.TcCoe Idealize.ShloMosaic.ValueIdx Cert.HeadSpec Cert.LibKeepdims

/-! ## The payload as three small functions -/

/-- The block's logits: the 10000 × 64 block times the 64 × 40 transposed weights (both passed through bf16, into a
    zero accumulator), plus the bias row repeated for every row. -/
def logitsBlock (x0 : Vec Ideal S10000x64 .f32) (x1 : Vec Ideal S64x40 .f32) (x2 : Vec Ideal S1x40 .f32) : FVec Ideal S10000x40 .f32 :=
  addf (matmul dot_S10000x64_S64x40_S10000x40_1_0_0_1_n_n none
      (truncf .bf16 (shapeCast S10000x64 x0 shapeCasts_S10000x64_S10000x64) bitsLt_bf16_f32)
      (truncf .bf16 (shapeCast S64x40 x1 shapeCasts_S64x40_S64x40) bitsLt_bf16_f32)
      (constant S10000x40 .f32 0x00000000#32))
    (broadcastTo S10000x40 (shapeCast S1x40 x2 shapeCasts_S1x40_S1x40) broadcasts_S1x40_S10000x40)

/-- A per-row value as a column repeated along the 40 lanes. -/
def alongLanes (v : FVec Ideal S10000x1 .f32) : FVec Ideal S10000x40 .f32 :=
  broadcastTo S10000x40 v broadcasts_S10000x1_S10000x40

/-- The row maxima of a block, taken from −∞ along the lanes. -/
def rowMaxBlock (L : FVec Ideal S10000x40 .f32) : FVec Ideal S10000 .f32 :=
  multiReduction .maximumf [1] S10000 L 0xFF800000#32 reduces_S10000x40_S10000 (.inl rfl) rfl

/-- The block's logits shifted by their row maxima. -/
def shiftedBlock (L : FVec Ideal S10000x40 .f32) : FVec Ideal S10000x40 .f32 :=
  subf L (alongLanes (shapeCast S10000x1 (rowMaxBlock L) shapeCasts_S10000_S10000x1))

/-- The row sums of a block along the lanes, from zero. -/
def rowSumBlock (E : FVec Ideal S10000x40 .f32) : FVec Ideal S10000 .f32 :=
  multiReduction .add [1] S10000 E 0x00000000#32 reduces_S10000x40_S10000 (.inl rfl) rfl

/-- Log-softmax of the block's rows: the shifted logits minus the logarithm of the row sums of their exponentials. -/
def logSoftmaxBlock (L : FVec Ideal S10000x40 .f32) : FVec Ideal S10000x40 .f32 :=
  subf (shiftedBlock L)
    (alongLanes (log (shapeCast S10000x1 (rowSumBlock (exp (shiftedBlock L))) shapeCasts_S10000_S10000x1)))

/-- The printed payload is this composition: the definitions unfold to its operations, line for line. -/
theorem pay_eq (x0 : Vec Ideal S10000x64 .f32) (x1 : Vec Ideal S64x40 .f32) (x2 : Vec Ideal S1x40 .f32) :
    k0_pay1 (F := Ideal) x0 x1 x2 = logSoftmaxBlock (logitsBlock x0 x1 x2) := rfl

/-! ## Each function at an index -/

/-- Coordinate 0 of the left operand's index is the output's row. -/
theorem lhs_row (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide),
    dif_pos (show (0 : Fin S10000x64.rank) ∈ dot_S10000x64_S64x40_S10000x40_1_0_0_1_n_n.lhsNonContracting by decide)]
  rfl

/-- Coordinate 1 of the right operand's index is the output's column. -/
theorem rhs_col (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide),
    dif_pos (show (1 : Fin S64x40.rank) ∈ dot_S10000x64_S64x40_S10000x40_1_0_0_1_n_n.rhsNonContracting by decide)]
  rfl

/-- The block's matrix product into a zero accumulator, at `(p, c)`: the sum over the 64 features of the left operand
    at `(p, k)` times the right operand at `(k, c)`. -/
theorem matmul_at (a : FVec Ideal S10000x64 .bf16) (b : FVec Ideal S64x40 .bf16) (p : Fin 10000) (c : Fin 40) :
    matmul dot_S10000x64_S64x40_S10000x40_1_0_0_1_n_n none a b (constant S10000x40 .f32 0x00000000#32) (ix2 p c)
      = ∑ k : Fin 64, a (ix2 p k) * b (ix2 k c) := by
  simp only [matmul]
  rw [Ideal.matmul_constant_zero_apply,
    ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p c)
      ((contrEquiv1 dot_S10000x64_S64x40_S10000x40_1_0_0_1_n_n 64 rfl rfl).symm k) = ix2 p k := funext fun ax => Fin.ext (by
    match ax with
    | ⟨0, _⟩ => exact lhs_row _ _
    | ⟨1, _⟩ => exact (dot_S10000x64_S64x40_S10000x40_1_0_0_1_n_n.lhsIdx_val_of_single rfl _ _).trans hk)
  have er : dot_S10000x64_S64x40_S10000x40_1_0_0_1_n_n.rhsIdx (ix2 p c)
      ((contrEquiv1 dot_S10000x64_S64x40_S10000x40_1_0_0_1_n_n 64 rfl rfl).symm k) = ix2 k c := funext fun ax => Fin.ext (by
    match ax with
    | ⟨0, _⟩ => exact (dot_S10000x64_S64x40_S10000x40_1_0_0_1_n_n.rhsIdx_val_of_single rfl _ _).trans hk
    | ⟨1, _⟩ => exact rhs_col _ _)
  rw [el, er]

/-- The block's logits at `(p, c)`: row `p` of the block against column `c` of the transposed weights, plus the bias
    row's entry `c`. -/
theorem logitsBlock_apply (x0 : Vec Ideal S10000x64 .f32) (x1 : Vec Ideal S64x40 .f32) (x2 : Vec Ideal S1x40 .f32)
    (p : Fin 10000) (c : Fin 40) :
    logitsBlock x0 x1 x2 (ix2 p c) = (∑ k : Fin 64, x0 (ix2 p k) * x1 (ix2 k c)) + x2 (ix2 (0 : Fin 1) c) := by
  unfold logitsBlock
  rw [addf_apply, matmul_at, broadcastTo_1b_ab_apply]
  simp only [shapeCast_self, truncf_apply]

/-- The index of row `p` with lane `k` put back on the reduced axis is `(p, k)`. -/
theorem lift_lane (h : S10000x40.Reduces [1] S10000) (p : Fin 10000) (k : Fin (S10000x40.size 1)) :
    h.lift (ix1 p) k = ix2 p (⟨k.val, k.isLt⟩ : Fin 40) := by
  funext ax; apply Fin.ext
  match ax with | ⟨0, _⟩ => rfl | ⟨1, _⟩ => rfl

/-- A block's row maximum at row `p`: the fold of `max` from −∞ over the row's 40 entries. -/
theorem rowMaxBlock_apply (L : FVec Ideal S10000x40 .f32) (p : Fin 10000) :
    rowMaxBlock L (ix1 p) = rowMax (fun c => L (ix2 p c)) := by
  unfold rowMaxBlock
  refine (Ideal.multiReduction_maximumf_single L 0xFF800000#32 reduces_S10000x40_S10000 (.inl rfl) rfl (ix1 p)).trans ?_
  have hf : (L ∘ reduces_S10000x40_S10000.lift (ix1 p)) = fun c : Fin 40 => L (ix2 p c) :=
    funext fun k => congrArg L (lift_lane _ p k)
  rw [hf]
  rfl

/-- A block's row sum at row `p`: the sum of the row's 40 entries. -/
theorem rowSumBlock_apply (E : FVec Ideal S10000x40 .f32) (p : Fin 10000) :
    rowSumBlock E (ix1 p) = ∑ c : Fin 40, E (ix2 p c) := by
  unfold rowSumBlock
  refine (Ideal.multiReduction_add_single E 0x00000000#32 reduces_S10000x40_S10000 (.inl rfl) rfl (ix1 p)).trans ?_
  exact Finset.sum_congr rfl fun k _ => congrArg E (lift_lane _ p k)

/-- A per-row vector cast to a column and repeated along the lanes reads, at `(p, c)`, the vector's entry `p`. -/
theorem alongLanes_column_apply (v : FVec Ideal S10000 .f32) (p : Fin 10000) (c : Fin 40) :
    alongLanes (shapeCast S10000x1 v shapeCasts_S10000_S10000x1) (ix2 p c) = v (ix1 p) := by
  unfold alongLanes
  rw [broadcastTo_a1_ab_apply, shapeCast_a_a1_apply]

/-- The shifted logit at `(p, c)`: the logit minus its row's maximum. -/
theorem shiftedBlock_apply (L : FVec Ideal S10000x40 .f32) (p : Fin 10000) (c : Fin 40) :
    shiftedBlock L (ix2 p c) = L (ix2 p c) - rowMax (fun d => L (ix2 p d)) := by
  unfold shiftedBlock
  rw [subf_apply, alongLanes_column_apply, rowMaxBlock_apply]

/-- THE BLOCK'S VALUE at `(p, c)` is the log-softmax, at `c`, of row `p` of the block's logits. -/
theorem logSoftmaxBlock_apply (L : FVec Ideal S10000x40 .f32) (p : Fin 10000) (c : Fin 40) :
    logSoftmaxBlock L (ix2 p c) = logSoftmax (fun d => L (ix2 p d)) c := by
  unfold logSoftmaxBlock alongLanes
  rw [subf_apply, broadcastTo_a1_ab_apply]
  show shiftedBlock L (ix2 p c)
      - Ideal.log (shapeCast S10000x1 (rowSumBlock (exp (shiftedBlock L))) shapeCasts_S10000_S10000x1 (ix2 p (0 : Fin 1))) = _
  rw [shapeCast_a_a1_apply, rowSumBlock_apply, shiftedBlock_apply]
  unfold logSoftmax
  refine congrArg (fun s => L (ix2 p c) - rowMax (fun d => L (ix2 p d)) - Ideal.log s) (Finset.sum_congr rfl fun d _ => ?_)
  show Ideal.exp (shiftedBlock L (ix2 p d)) = _
  rw [shiftedBlock_apply]

/-- The kernel body's stored value at `(p, c)`. -/
theorem pay_apply (x0 : Vec Ideal S10000x64 .f32) (x1 : Vec Ideal S64x40 .f32) (x2 : Vec Ideal S1x40 .f32)
    (p : Fin 10000) (c : Fin 40) :
    k0_pay1 (F := Ideal) x0 x1 x2 (ix2 p c)
      = logSoftmax (fun d => (∑ k : Fin 64, x0 (ix2 p k) * x1 (ix2 k d)) + x2 (ix2 (0 : Fin 1) d)) c := by
  rw [pay_eq, logSoftmaxBlock_apply]
  exact congrArg (fun L => logSoftmax L c) (funext fun d => logitsBlock_apply x0 x1 x2 p d)

end Cert.KernelIdeal.BlockValue

end
-- ==== Proof.KernelBlock.lean ====
/-
  One block against the whole arrays.

  If a block of 10000 feature rows is rows `10000·T … 10000·T + 9999` of an array `xp`, and the weight and bias blocks are
  the arrays `wt` and `b2` themselves, then the value the kernel body stores at an index `j` of its block is the head
  function at the array index `i` whose row is `10000·T +` the row of `j` and whose class is that of `j`: the logits of a
  row depend only on that row of the features, and log-softmax works row by row.
-/
import proofs.«119533_j84035330114212_1_alg».proof.Proof.KernelRow
import proofs.«119533_j84035330114212_1_alg».proof.Proof.HeadSpec

noncomputable section

namespace Cert.KernelIdeal.BlockValue

open Cert.KernelIdeal Cert.KernelIdeal.Gen
open Idealize.ShloMosaic Idealize.ShloMosaic.TcCoe Idealize.ShloMosaic.ValueIdx Cert.HeadSpec

/-- ONE BLOCK AGAINST THE WHOLE ARRAYS (see the header). -/
theorem block_value (xp : (⟨2, ![100000, 64]⟩ : Shape).Idx → EReal) (wt : (⟨2, ![64, 40]⟩ : Shape).Idx → EReal)
    (b2 : (⟨2, ![1, 40]⟩ : Shape).Idx → EReal)
    (x0 : Vec Ideal S10000x64 .f32) (x1 : Vec Ideal S64x40 .f32) (x2 : Vec Ideal S1x40 .f32) (T : Nat)
    (hrow : ∀ p : Fin 10000, T * 10000 + p.val < 100000)
    (h0 : ∀ (p : Fin 10000) (k : Fin 64), x0 (ix2 p k) = xp (ix2 (⟨T * 10000 + p.val, hrow p⟩ : Fin 100000) k))
    (h1 : ∀ (k : Fin 64) (d : Fin 40), x1 (ix2 k d) = wt (ix2 k d))
    (h2 : ∀ d : Fin 40, x2 (ix2 (0 : Fin 1) d) = b2 (ix2 (0 : Fin 1) d))
    (j : (⟨2, ![10000, 40]⟩ : Shape).Idx) (i : (⟨2, ![100000, 40]⟩ : Shape).Idx)
    (hi0 : (i 0).val = T * 10000 + (j 0).val) (hi1 : (i 1).val = (j 1).val) :
    k0_pay1 (F := Ideal) x0 x1 x2 j = head xp wt (fun d => b2 (ix2 (0 : Fin 1) d)) i := by
  obtain ⟨p, q, rfl⟩ : ∃ (p : Fin 10000) (q : Fin 40), j = ix2 p q := ⟨j 0, j 1, eq_ix2 j⟩
  obtain ⟨r, c, rfl⟩ : ∃ (r : Fin 100000) (c : Fin 40), i = ix2 r c := ⟨i 0, i 1, eq_ix2 i⟩
  have hr : r = (⟨T * 10000 + p.val, hrow p⟩ : Fin 100000) := Fin.ext hi0
  have hc : c = q := Fin.ext hi1
  subst hr hc
  rw [pay_apply]
  show _ = logSoftmax (logit xp wt (fun d => b2 (ix2 (0 : Fin 1) d)) (⟨T * 10000 + p.val, hrow p⟩ : Fin 100000)) c
  refine congrArg (fun L => logSoftmax L c) (funext fun d => ?_)
  unfold logit
  rw [h2 d]
  exact congrArg (· + b2 (ix2 (0 : Fin 1) d)) (Finset.sum_congr rfl fun k _ => by rw [h0 p k, h1 k d])

end Cert.KernelIdeal.BlockValue

end
-- ==== Proof.KernelArray.lean ====
/-
  From blocks to the whole array: after the kernel's run the result array is the head function of the arrays the region
  found.

  The grid has ten points. Point `t` reads rows `10000·t … 10000·t + 9999` of the feature array (its block index on the row
  axis is the result window's, on the feature axis 0), the whole transposed weight matrix and the whole bias row (block
  index 0 on every axis), and writes rows `10000·t … 10000·t + 9999` of the result. The relations between the four index
  maps are decided once over the ten points (`index_facts`). A block's array coordinate is always block index × block
  size + the coordinate inside the block; the three block reads are stated for an arbitrary array, so that nothing here
  depends on what the arrays hold. What point `t` writes at `(p, c)` is then the log-softmax of the logits of node
  `10000·t + p`: the head function read through the block (`flushed_eq`). The ten blocks cover every row (`cover`: row `r`
  lies in the block of the point whose row block index is `r / 10000`), so the array ends holding the head function
  everywhere (`array_eq_head`).
-/
import proofs.«119533_j84035330114212_1_alg».proof.Proof.Gen.KernelIdeal.Value
import proofs.«119533_j84035330114212_1_alg».proof.Proof.KernelBlock

set_option maxRecDepth 16384

noncomputable section

namespace Cert.KernelIdeal.ArrayValue

open Cert.KernelIdeal Cert.KernelIdeal.Gen Cert.KernelIdeal.BlockValue
open Idealize.ShloMosaic Idealize.ShloMosaic.TcCoe Idealize.ShloMosaic.ValueIdx Idealize.SL.Sem Cert.HeadSpec
open Idealize.ShloMosaic.Pipeline (Dat)

/-! ## The index maps -/

/-- Every load and store of the body starts at the origin of its buffer. -/
theorem origin : (![0, 0] : Fin 2 → Nat) = fun _ => 0 := funext fun a => by fin_cases a <;> rfl

/-- The four index maps over the ten grid points: the feature block moves with the result block along the rows and stays
    at 0 along the features; the weight and bias blocks stay at 0; the result's row block index is at most 9 and its
    class block index is 0. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every one of the ten row blocks is some point's. -/
theorem index_onto : ∀ q : Fin 10, ∃ t : Fin cfg0.N, win0_3.index t (0 : Fin 2) = q.val :=
  (by decide +kernel : ∀ q : Fin 10, ∃ t : Fin grid0.N, win0_3.index t (0 : Fin 2) = q.val)

/-- Row `p` of point `t`'s block is a row of the 100000-row arrays. -/
theorem row_lt (t : Fin cfg0.N) (p : Fin 10000) : win0_3.index t (0 : Fin 2) * 10000 + p.val < 100000 := by
  have := (index_facts t).2.2.2.2.2.2.1
  have := p.isLt
  omega

/-! ## A block read off ANY array -/

set_option maxHeartbeats 1000000 in
/-- The feature window's block at point `t`, read off any 100000 × 64 array `A`: entry `(p, k)` is `A` at row
    `10000·(row block index of t) + p`, column `k`. -/
theorem features_read (t : Fin cfg0.N) (A : (⟨2, ![100000, 64]⟩ : Shape).Idx → EReal) (p : Fin 10000) (k : Fin 64) :
    ((cfg0.win 0).blk t).view.read (Elt Ideal) A (ix2 p k)
      = A (ix2 (⟨win0_3.index t (0 : Fin 2) * 10000 + p.val, row_lt t p⟩ : Fin 100000) k) := by
  obtain ⟨e0, e1, e2, e3, e4, e5, e6, e7⟩ := index_facts t
  show A (((cfg0.win 0).blk t).view.emb (ix2 p k)) = _
  refine congrArg A (funext fun a => Fin.ext ?_)
  match a with
  | ⟨0, _⟩ => show win0_0.index t (0 : Fin 2) * 10000 + 1 * p.val = win0_3.index t (0 : Fin 2) * 10000 + p.val; omega
  | ⟨1, _⟩ => show win0_0.index t (1 : Fin 2) * 64 + 1 * k.val = k.val; omega

set_option maxHeartbeats 1000000 in
/-- The weight window's block at any point, read off any 64 × 40 array, is the array itself. -/
theorem weights_read (t : Fin cfg0.N) (A : (⟨2, ![64, 40]⟩ : Shape).Idx → EReal) (k : Fin 64) (d : Fin 40) :
    ((cfg0.win 1).blk t).view.read (Elt Ideal) A (ix2 k d) = A (ix2 k d) := by
  obtain ⟨e0, e1, e2, e3, e4, e5, e6, e7⟩ := index_facts t
  show A (((cfg0.win 1).blk t).view.emb (ix2 k d)) = _
  refine congrArg A (funext fun a => Fin.ext ?_)
  match a with
  | ⟨0, _⟩ => show win0_1.index t (0 : Fin 2) * 64 + 1 * k.val = k.val; omega
  | ⟨1, _⟩ => show win0_1.index t (1 : Fin 2) * 40 + 1 * d.val = d.val; omega

set_option maxHeartbeats 1000000 in
/-- The bias window's block at any point, read off any 1 × 40 array, is the array itself. -/
theorem bias_read (t : Fin cfg0.N) (A : (⟨2, ![1, 40]⟩ : Shape).Idx → EReal) (d : Fin 40) :
    ((cfg0.win 2).blk t).view.read (Elt Ideal) A (ix2 (0 : Fin 1) d) = A (ix2 (0 : Fin 1) d) := by
  obtain ⟨e0, e1, e2, e3, e4, e5, e6, e7⟩ := index_facts t
  show A (((cfg0.win 2).blk t).view.emb (ix2 (0 : Fin 1) d)) = _
  refine congrArg A (funext fun a => Fin.ext ?_)
  match a with
  | ⟨0, _⟩ => show win0_2.index t (0 : Fin 2) * 1 + 1 * 0 = 0; omega
  | ⟨1, _⟩ => show win0_2.index t (1 : Fin 2) * 40 + 1 * d.val = d.val; omega

/-- The result window's block at point `t`, read off ANY 100000 × 40 array `f`, at `j`: `f` at the array index under `j`.
    (Stated for a variable `f`: the read's transport along the element-type equation is the identity, and with nothing to
    unfold on the other side that is immediate.) -/
theorem read_result (t : Fin cfg0.N) (f : (⟨2, ![100000, 40]⟩ : Shape).Idx → EReal)
    (j : ((cfg0.win 3).xblock (grid0.coords t)).Idx) :
    ((cfg0.win 3).blk t).view.read (Elt Ideal) f j = f (((cfg0.win 3).blk t).view.emb j) := rfl

/-! ## The region's arrays -/

variable (m : (ℓ : Loc nD τ sig) → Buf (Elt Ideal) ℓ) (ρ : Dev nD → PrngReg)

/-- The head function of the arrays the region finds behind its three input windows: the feature array, the transposed
    weights, and the bias read off the bias row. -/
def headOfRegion (c : Dev nD) : (⟨2, ![100000, 40]⟩ : Shape).Idx → EReal :=
  head (V m c (Pipeline.arrRef spec0 0)) (V m c (Pipeline.arrRef spec0 1))
    (fun d => V m c (Pipeline.arrRef spec0 2) (ix2 (0 : Fin 1) d))

set_option maxHeartbeats 1000000 in
/-- WHAT POINT `t` WRITES BACK is block `t` of the head function of the arrays the region finds. -/
theorem flushed_eq (c : Dev nD) (t : Fin cfg0.N) :
    (dats m 0 c).flushed 3 t = ((cfg0.win 3).blk t).view.read (Elt Ideal) (headOfRegion m c) := by
  rw [Cert.KernelIdeal.Value.flushed3]
  unfold out0_3
  rw [View.canon_unit_zero origin]
  simp only [View.ld_unit_zero (S := S10000x64) origin, View.ld_unit_zero (S := S64x40) origin, View.ld_unit_zero (S := S1x40) origin]
  obtain ⟨e0, e1, e2, e3, e4, e5, e6, e7⟩ := index_facts t
  funext j
  -- the right side at `j` is the head function at the array index under `j`
  refine Eq.trans ?_ (read_result t (headOfRegion m c) j).symm
  -- the left side at `j` is the body's value at the block index `j` names
  show k0_pay1 (F := Ideal) (iblk m c 0 t) (iblk m c 1 t) (iblk m c 2 t) ((win0 3).xinj (grid0.coords t) j) = _
  refine block_value (V m c (Pipeline.arrRef spec0 0)) (V m c (Pipeline.arrRef spec0 1)) (V m c (Pipeline.arrRef spec0 2))
    (iblk m c 0 t) (iblk m c 1 t) (iblk m c 2 t) (win0_3.index t (0 : Fin 2)) (row_lt t)
    (fun p k => features_read t (V m c (Pipeline.arrRef spec0 0)) p k)
    (fun k d => weights_read t (V m c (Pipeline.arrRef spec0 1)) k d)
    (fun d => bias_read t (V m c (Pipeline.arrRef spec0 2)) d)
    ((win0 3).xinj (grid0.coords t) j) (((cfg0.win 3).blk t).view.emb j) ?_ ?_
  · show win0_3.index t (0 : Fin 2) * 10000 + 1 * (j 0).val = win0_3.index t (0 : Fin 2) * 10000 + (j 0).val; omega
  · show win0_3.index t (1 : Fin 2) * 40 + 1 * (j 1).val = (j 1).val; omega

/-! ## The cover -/

/-- An index of the result array is in point `t`'s block iff each coordinate is in the block's range on its axis. -/
theorem mem_block (t : Fin cfg0.N) (i : S100000x40.Idx) :
    i ∈ ((cfg0.win 3).blk t).view.set ↔ ∀ a : Fin 2, win0_3.index t a * S10000x40.size a ≤ (i a).val
      ∧ (i a).val < win0_3.index t a * S10000x40.size a + S10000x40.size a := by
  show i ∈ ((View.whole main_v58).slice (win0_3.rect t)).set ↔ _
  rw [View.set_slice_whole, Rect.mem_set_unit]
  exact Iff.rfl

/-- THE COVER: row `r` of the result lies in the block of the point whose row block index is `r / 10000`. -/
theorem cover (i : S100000x40.Idx) :
    ∃ t : Fin cfg0.N, (cfg0.win 3).flush t = true ∧ i ∈ ((cfg0.win 3).blk t).view.set := by
  have hi0 : (i 0).val < 100000 := (i 0).isLt
  have hi1 : (i 1).val < 40 := (i 1).isLt
  obtain ⟨t, ht⟩ := index_onto ⟨(i 0).val / 10000, by omega⟩
  have hq : win0_3.index t (0 : Fin 2) = (i 0).val / 10000 := ht
  obtain ⟨e0, e1, e2, e3, e4, e5, e6, e7⟩ := index_facts t
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 40 ≤ (i 1).val ∧ (i 1).val < win0_3.index t (1 : Fin 2) * 40 + 40
    omega

/-- THE RESULT ARRAY after the run is the head function of the arrays the region finds. -/
theorem array_eq_head (c : Dev nD) : (dats m 0 c).arrAt 3 cfg0.N = headOfRegion m c :=
  (dats m 0 c).arrAt_eq_of_cover 3 (headOfRegion m c) (fun t _ => flushed_eq m c t) cover

end Cert.KernelIdeal.ArrayValue

end
-- ==== Proof.KernelStages.lean ====
/-
  The kernel program's host operations before the region, as named stages.

  Before it launches the kernel, the program runs the same two propagation hops as the reference — the same operations in
  the same order on the same two argument arrays — then transposes the weights. The stages are named as in the reference's
  reading: `src` / `dst` (the edge list's two rows, each followed by the self loops), `deg` (in-degrees: ones scatter-added
  at the targets), `dinv` (deg^(-1/2) where positive, else 0), `wrapIdx` (a negative index moved up by the number of
  nodes), `norm` (per edge, dinv at its source times dinv at its target), `hop` (gather the rows at the sources, scale by
  `norm`, scatter-add at the targets), `propagated` (two hops) and `weightsT`. They are stated over this program's own
  shape and dimension records; that they are the reference's stages is a separate, stage-by-stage statement.
-/
import proofs.«119533_j84035330114212_1_alg».proof.Proof.Gen.KernelIdeal

noncomputable section

namespace Cert.KernelIdeal.HostStages

open Cert.KernelIdeal Cert.KernelIdeal.Gen Idealize.ShloMosaic Idealize.ShloMosaic.TcCoe Idealize.SL.Sem

variable {F : FTy → Type} [FloatOps F]

/-! ## The stages -/

/-- Row `row` of the edge list (0: sources, 1: targets) followed by the self loops 0 … 99999: 1300000 node indices. -/
def endpoints (row : Fin 2 → Nat) (hrow : S2x1200000.Slices row S1x1200000)
    (x1 : (⟨S2x1200000, .i32⟩ : BufTy).Contents (Elt F)) : (⟨S1300000, .i32⟩ : BufTy).Contents (Elt F) :=
  concatenate S1300000 0 [⟨S1200000, shapeCast S1200000 (extractStridedSlice S1x1200000 row x1 hrow) shapeCasts_S1x1200000_S1200000⟩,
    ⟨S100000, iotaInDim S100000 32 0⟩] concatenates_S1200000_S100000_S1300000_d0

/-- Message sources: row 0 of the edge list, then the self loops. -/
def src (x1 : (⟨S2x1200000, .i32⟩ : BufTy).Contents (Elt F)) : (⟨S1300000, .i32⟩ : BufTy).Contents (Elt F) :=
  endpoints (F := F) ![0, 0] slices_S2x1200000_S1x1200000_0_0 x1

/-- Aggregation targets: row 1 of the edge list, then the self loops. -/
def dst (x1 : (⟨S2x1200000, .i32⟩ : BufTy).Contents (Elt F)) : (⟨S1300000, .i32⟩ : BufTy).Contents (Elt F) :=
  endpoints (F := F) ![1, 0] slices_S2x1200000_S1x1200000_1_0 x1

/-- A vector of 1300000 node indices as the one-column index array a gather or scatter takes. -/
def column (v : (⟨S1300000, .i32⟩ : BufTy).Contents (Elt F)) : (⟨S1300000x1, .i32⟩ : BufTy).Contents (Elt F) :=
  broadcastInDim S1300000x1 ![0] bcast_S1300000_S1300000x1_0 v

/-- The in-degree of every node (self loop included): ones scatter-added at the targets, from zero. -/
def deg (x1 : (⟨S2x1200000, .i32⟩ : BufTy).Contents (Elt F)) : (⟨S100000, .f32⟩ : BufTy).Contents (Elt F) :=
  Host.scatterAdd (F := F) scatter_S100000_S1300000x1_S1300000_n_0_0_1
    (broadcastInDim S100000 ![] bcast_S_S100000 (constant (F := F) S_ .f32 0x00000000#32))
    (column (F := F) (dst (F := F) x1))
    (broadcastInDim S1300000 ![] bcast_S_S1300000 (constant (F := F) S_ .f32 0x3F800000#32))

/-- deg^(-1/2) where the degree is positive, 0 elsewhere. -/
def dinv (x1 : (⟨S2x1200000, .i32⟩ : BufTy).Contents (Elt F)) : (⟨S100000, .f32⟩ : BufTy).Contents (Elt F) :=
  select (cmpf (F := F) .ogt (deg (F := F) x1) (broadcastInDim S100000 ![] bcast_S_S100000 (constant (F := F) S_ .f32 0x00000000#32)))
    (Host.rsqrt (F := F) (deg (F := F) x1))
    (broadcastInDim S100000 ![] bcast_S_S100000 (id (constant (F := F) S_ .f32 0x00000000#32)))

/-- jnp's index normalisation: a negative index is moved up by the number of nodes. -/
def wrapIdx (v : (⟨S1300000, .i32⟩ : BufTy).Contents (Elt F)) : (⟨S1300000, .i32⟩ : BufTy).Contents (Elt F) :=
  select (cmpi .slt v (broadcastInDim S1300000 ![] bcast_S_S1300000 (constantI S_ 32 0#32)))
    (addi v (broadcastInDim S1300000 ![] bcast_S_S1300000 (constantI S_ 32 100000#32))) v

/-- The symmetric normalisation of every edge: dinv at its source times dinv at its target. -/
def norm (x1 : (⟨S2x1200000, .i32⟩ : BufTy).Contents (Elt F)) : (⟨S1300000, .f32⟩ : BufTy).Contents (Elt F) :=
  mulf (F := F)
    (Host.gather gather_S100000_S1300000x1_S1300000_n_0_n_n_0_1_1 (dinv (F := F) x1) (column (F := F) (wrapIdx (F := F) (src (F := F) x1))))
    (Host.gather gather_S100000_S1300000x1_S1300000_n_0_n_n_0_1_1 (dinv (F := F) x1) (column (F := F) (wrapIdx (F := F) (dst (F := F) x1))))

/-- One propagation step: every edge carries its source's feature row scaled by the edge's `norm`, and the rows are
    summed at the edge's target, from zero. -/
def hop (x1 : (⟨S2x1200000, .i32⟩ : BufTy).Contents (Elt F)) (x : (⟨S100000x64, .f32⟩ : BufTy).Contents (Elt F)) :
    (⟨S100000x64, .f32⟩ : BufTy).Contents (Elt F) :=
  Host.scatterAdd (F := F) scatter_S100000x64_S1300000x1_S1300000x64_1_0_0_1
    (broadcastInDim S100000x64 ![] bcast_S_S100000x64 (constant (F := F) S_ .f32 0x00000000#32))
    (column (F := F) (dst (F := F) x1))
    (mulf (F := F)
      (Host.gather gather_S100000x64_S1300000x1_S1300000x64_1_0_n_n_0_1_164 x (column (F := F) (wrapIdx (F := F) (src (F := F) x1))))
      (broadcastInDim S1300000x64 ![0, 1] bcast_S1300000x1_S1300000x64_0_1
        (broadcastInDim S1300000x1 ![0] bcast_S1300000_S1300000x1_0 (norm (F := F) x1))))

/-- The features after the two propagation steps. -/
def propagated (x0 : (⟨S100000x64, .f32⟩ : BufTy).Contents (Elt F)) (x1 : (⟨S2x1200000, .i32⟩ : BufTy).Contents (Elt F)) :
    (⟨S100000x64, .f32⟩ : BufTy).Contents (Elt F) :=
  hop (F := F) x1 (hop (F := F) x1 x0)

/-- The weights transposed: entry `(k, c)` is the weight of feature `k` for class `c`. -/
def weightsT (x2 : (⟨S40x64, .f32⟩ : BufTy).Contents (Elt F)) : (⟨S64x40, .f32⟩ : BufTy).Contents (Elt F) :=
  transpose S64x40 [1, 0] x2 transposes_S40x64_S64x40_1_0

end Cert.KernelIdeal.HostStages

end
-- ==== Proof.KernelHost.lean ====
/-
  What the region finds in its three input arrays.

  Before the kernel is launched the program runs 74 host operations: the two propagation hops, the transpose of the
  weights, and the bias vector reshaped to a row. Read back, the array the feature window reads is `propagated` of the
  argument features and edge list, the array the weight window reads is `weightsT` of the argument weights, and the bias
  row's entry `(0, d)` is the bias vector's entry `d`. Nothing here opens a gather or a scatter: the composed term the
  operations leave is the staged term, operation for operation.
-/
import proofs.«119533_j84035330114212_1_alg».proof.Proof.Gen.KernelIdeal.Frame
import proofs.«119533_j84035330114212_1_alg».proof.Proof.KernelStages
import Idealize.ShloMosaic.Lib.ValueLayout
import Idealize.ShloMosaic.Lib.StableHlo.Run

noncomputable section

namespace Cert.KernelIdeal.HostValue

open Cert.KernelIdeal Cert.KernelIdeal.Gen Cert.KernelIdeal.HostStages
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

set_option maxRecDepth 8192 in
set_option maxHeartbeats 36800000 in
/-- The feature window's array is the two-hop propagation of the argument features along the argument edge list. -/
theorem features_eq (c : Dev nD) :
    V m c main_v55 = propagated (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp <;> rfl

set_option maxRecDepth 8192 in
set_option maxHeartbeats 36800000 in
/-- The weight window's array is the argument weights transposed. -/
theorem weights_eq (c : Dev nD) :
    V m c main_v56 = weightsT (F := F) (m ((c : Thread nD τ).loc main_arg2)) := by
  dsimp only [V]
  simp only [hostOps0, hostOps0_1, hostOps0_2, List.flatten_cons, List.flatten_nil, List.append_nil, List.cons_append,
    List.nil_append]
  after_results_simp <;> rfl

set_option maxRecDepth 8192 in
set_option maxHeartbeats 36800000 in
/-- The bias window's array is the argument bias vector reshaped to one row. -/
theorem biasRow_eq (c : Dev nD) :
    V m c main_v57 = shapeCast S1x40 (m ((c : Thread nD τ).loc main_arg3)) shapeCasts_S40_S1x40 := by
  dsimp only [V]
  simp only [hostOps0, hostOps0_1, hostOps0_2, List.flatten_cons, List.flatten_nil, List.append_nil, List.cons_append,
    List.nil_append]
  after_results_simp <;> rfl

/-- A vector of 40 entries reshaped to one row reads, at `(0, d)`, entry `d` (stated for a variable vector). -/
theorem row_of_vector (b : (⟨1, ![40]⟩ : Shape).Idx → Elt F .f32) (d : Fin 40) :
    shapeCast S1x40 b shapeCasts_S40_S1x40 (ix2 (0 : Fin 1) d) = b (ix1 d) :=
  shapeCast_a_1a_apply b shapeCasts_S40_S1x40 (0 : Fin 1) d

end Cert.KernelIdeal.HostValue

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.LibTRefCasts.lean ====
/-
  Typed references and their transports. A module-local function's operations name their buffers as typed references
  (`TRef`): a buffer together with the equation saying its declared type is the value's type, and every operand and result
  passes through the transport along that equation (`ofBuf` going in, `toBuf` coming out). The two transports are inverse
  to each other, for any typed reference whatever: destructure the reference and substitute the equation, and both are
  the identity. Rewriting with these removes every paired transport from a composed term without computing anything.
-/
import Idealize.ShloMosaic.Lib.StableHlo

namespace Cert.Lib

open Idealize.ShloMosaic Idealize.ShloMosaic.StableHlo

/-- Contents carried into a buffer's type and back are the contents. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- Contents carried out of a buffer's type and back are the contents. -/
theorem toBuf_ofBuf {sig : RefSig} {Val : EltTy → Type} {T : BufTy} (x : TRef sig T) (v : x.ref.ty.Contents Val) :
    x.toBuf (x.ofBuf v) = v := by
  obtain ⟨r, h, h1, h2⟩ := x
  subst h
  rfl

end Cert.Lib
-- ==== Proof.RefRun.lean ====
/-
  The reference program's run, read back by hand.

  The reference's @main is a straight line of 92 host operations. `ops` lists them in program order (a called function's
  operations stand at its call), `main_eq` says @main is that list run in sequence, and `run` says: every weakly fair
  execution terminates, the four argument arrays are unchanged, and the result array holds `result` of the arguments.

  `result` is stated through named stages, each an array-valued function of the arrays it depends on:
  `src` / `dst` (the edge list's two rows, each followed by the self loops 0 … 99999), `deg` (how many edges arrive at each
  node: a scatter-add of ones at `dst`), `dinv` (deg^(-1/2) where deg > 0, else 0), `wrapIdx` (a negative index moved up by
  100000, as jnp indexing does), `norm` (per edge, dinv at its source times dinv at its target), `hop` (one propagation
  step: gather the rows at `src`, scale each by its edge's `norm`, scatter-add at `dst`), `propagated` (two hops),
  `weightsT` (the transposed weights), `logits` (one matrix product plus the bias row) and `logSoftmaxRows`
  (log-softmax along the 40 classes). Nothing downstream opens the stages before `weightsT`.

  The run is read in two stretches (`ops_split`): the 77 operations through the logits, whose result is compared with
  the staged term directly, and the 15 operations of log-softmax, read from an ARBITRARY valuation `W` of the buffers
  (`softmax_stage`), so that the long first stretch is one opaque value there. The called function's operations carry
  their operands under transports along buffer-type equations; these come in inverse pairs and are removed by rewriting
  (`Cert.Lib.ofBuf_toBuf`) before the two sides are compared, so that no reduction over the 100000 × 40 logits is ever
  opened.
-/
import proofs.«119533_j84035330114212_1_alg».proof.Proof.Gen.ReferenceIdeal
import Idealize.ShloMosaic.Lib.StableHlo.Run
import proofs.«119533_j84035330114212_1_alg».proof.Proof.LibAfterAppend
import proofs.«119533_j84035330114212_1_alg».proof.Proof.LibTRefCasts

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 92 operations, in order (a called function's operations stand in its call's place, spelt `TRef.…`). -/
abbrev ops : List (HloOp τ sig (Elt F)) :=
  [ nullary main_v0 (iotaInDim S100000 32 0),
    unary main_arg1 main_v1 ((extractStridedSlice S1x1200000 ![0, 0] · slices_S2x1200000_S1x1200000_0_0) : (⟨S2x1200000, .i32⟩ : BufTy).Contents (Elt F) → (⟨S1x1200000, .i32⟩ : BufTy).Contents (Elt F)),
    reshape main_v1 main_v2 rfl shapeCasts_S1x1200000_S1200000,
    binary main_v2 main_v0 main_v3 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    unary main_arg1 main_v4 ((extractStridedSlice S1x1200000 ![1, 0] · slices_S2x1200000_S1x1200000_1_0) : (⟨S2x1200000, .i32⟩ : BufTy).Contents (Elt F) → (⟨S1x1200000, .i32⟩ : BufTy).Contents (Elt F)),
    reshape main_v4 main_v5 rfl shapeCasts_S1x1200000_S1200000,
    binary main_v5 main_v0 main_v6 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    nullary main_cst (constant S_ .f32 0x3F800000#32),
    unary main_cst main_v7 (broadcastInDim S1300000 ![] bcast_S_S1300000 : (⟨S_, .f32⟩ : BufTy).Contents (Elt F) → (⟨S1300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1300000x1 ![0] bcast_S1300000_S1300000x1_0 : (⟨S1300000, .i32⟩ : BufTy).Contents (Elt F) → (⟨S1300000x1, .i32⟩ : BufTy).Contents (Elt F)),
    ternary main_v8 main_v9 main_v7 main_v10 ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1300000 ![] bcast_S_S1300000 : (⟨S_, .i32⟩ : BufTy).Contents (Elt F) → (⟨S1300000, .i32⟩ : BufTy).Contents (Elt F)),
    binary main_v3 main_v15 main_v16 (cmpi .slt : (⟨S1300000, .i32⟩ : BufTy).Contents (Elt F) → (⟨S1300000, .i32⟩ : BufTy).Contents (Elt F) → (⟨S1300000, .i1⟩ : BufTy).Contents (Elt F)),
    nullary main_c_3 (constantI S_ 32 100000#32),
    unary main_c_3 main_v17 (broadcastInDim S1300000 ![] bcast_S_S1300000 : (⟨S_, .i32⟩ : BufTy).Contents (Elt F) → (⟨S1300000, .i32⟩ : BufTy).Contents (Elt F)),
    binary main_v3 main_v17 main_v18 (addi : (⟨S1300000, .i32⟩ : BufTy).Contents (Elt F) → (⟨S1300000, .i32⟩ : BufTy).Contents (Elt F) → (⟨S1300000, .i32⟩ : BufTy).Contents (Elt F)),
    ternary main_v16 main_v18 main_v3 main_v19 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v19 main_v20 (broadcastInDim S1300000x1 ![0] bcast_S1300000_S1300000x1_0 : (⟨S1300000, .i32⟩ : BufTy).Contents (Elt F) → (⟨S1300000x1, .i32⟩ : BufTy).Contents (Elt F)),
    binary main_v14 main_v20 main_v21 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    nullary main_c_4 (constantI S_ 32 0#32),
    unary main_c_4 main_v22 (broadcastInDim S1300000 ![] bcast_S_S1300000 : (⟨S_, .i32⟩ : BufTy).Contents (Elt F) → (⟨S1300000, .i32⟩ : BufTy).Contents (Elt F)),
    binary main_v6 main_v22 main_v23 (cmpi .slt : (⟨S1300000, .i32⟩ : BufTy).Contents (Elt F) → (⟨S1300000, .i32⟩ : BufTy).Contents (Elt F) → (⟨S1300000, .i1⟩ : BufTy).Contents (Elt F)),
    nullary main_c_5 (constantI S_ 32 100000#32),
    unary main_c_5 main_v24 (broadcastInDim S1300000 ![] bcast_S_S1300000 : (⟨S_, .i32⟩ : BufTy).Contents (Elt F) → (⟨S1300000, .i32⟩ : BufTy).Contents (Elt F)),
    binary main_v6 main_v24 main_v25 (addi : (⟨S1300000, .i32⟩ : BufTy).Contents (Elt F) → (⟨S1300000, .i32⟩ : BufTy).Contents (Elt F) → (⟨S1300000, .i32⟩ : BufTy).Contents (Elt F)),
    ternary main_v23 main_v25 main_v6 main_v26 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v26 main_v27 (broadcastInDim S1300000x1 ![0] bcast_S1300000_S1300000x1_0 : (⟨S1300000, .i32⟩ : BufTy).Contents (Elt F) → (⟨S1300000x1, .i32⟩ : BufTy).Contents (Elt F)),
    binary main_v14 main_v27 main_v28 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    binary main_v21 main_v28 main_v29 (mulf : (⟨S1300000, .f32⟩ : BufTy).Contents (Elt F) → (⟨S1300000, .f32⟩ : BufTy).Contents (Elt F) → (⟨S1300000, .f32⟩ : BufTy).Contents (Elt F)),
    nullary main_c_6 (constantI S_ 32 0#32),
    unary main_c_6 main_v30 (broadcastInDim S1300000 ![] bcast_S_S1300000 : (⟨S_, .i32⟩ : BufTy).Contents (Elt F) → (⟨S1300000, .i32⟩ : BufTy).Contents (Elt F)),
    binary main_v3 main_v30 main_v31 (cmpi .slt : (⟨S1300000, .i32⟩ : BufTy).Contents (Elt F) → (⟨S1300000, .i32⟩ : BufTy).Contents (Elt F) → (⟨S1300000, .i1⟩ : BufTy).Contents (Elt F)),
    nullary main_c_7 (constantI S_ 32 100000#32),
    unary main_c_7 main_v32 (broadcastInDim S1300000 ![] bcast_S_S1300000 : (⟨S_, .i32⟩ : BufTy).Contents (Elt F) → (⟨S1300000, .i32⟩ : BufTy).Contents (Elt F)),
    binary main_v3 main_v32 main_v33 (addi : (⟨S1300000, .i32⟩ : BufTy).Contents (Elt F) → (⟨S1300000, .i32⟩ : BufTy).Contents (Elt F) → (⟨S1300000, .i32⟩ : BufTy).Contents (Elt F)),
    ternary main_v31 main_v33 main_v3 main_v34 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v34 main_v35 (broadcastInDim S1300000x1 ![0] bcast_S1300000_S1300000x1_0 : (⟨S1300000, .i32⟩ : BufTy).Contents (Elt F) → (⟨S1300000x1, .i32⟩ : BufTy).Contents (Elt F)),
    binary main_arg0 main_v35 main_v36 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v29 main_v37 (broadcastInDim S1300000x1 ![0] bcast_S1300000_S1300000x1_0 : (⟨S1300000, .f32⟩ : BufTy).Contents (Elt F) → (⟨S1300000x1, .f32⟩ : BufTy).Contents (Elt F)),
    unary main_v37 main_v38 (broadcastInDim S1300000x64 ![0, 1] bcast_S1300000x1_S1300000x64_0_1 : (⟨S1300000x1, .f32⟩ : BufTy).Contents (Elt F) → (⟨S1300000x64, .f32⟩ : BufTy).Contents (Elt F)),
    binary main_v36 main_v38 main_v39 (mulf : (⟨S1300000x64, .f32⟩ : BufTy).Contents (Elt F) → (⟨S1300000x64, .f32⟩ : BufTy).Contents (Elt F) → (⟨S1300000x64, .f32⟩ : BufTy).Contents (Elt F)),
    nullary main_cst_8 (constant S_ .f32 0x00000000#32),
    unary main_cst_8 main_v40 (broadcastInDim S100000x64 ![] bcast_S_S100000x64 : (⟨S_, .f32⟩ : BufTy).Contents (Elt F) → (⟨S100000x64, .f32⟩ : BufTy).Contents (Elt F)),
    unary main_v6 main_v41 (broadcastInDim S1300000x1 ![0] bcast_S1300000_S1300000x1_0 : (⟨S1300000, .i32⟩ : BufTy).Contents (Elt F) → (⟨S1300000x1, .i32⟩ : BufTy).Contents (Elt F)),
    ternary main_v40 main_v41 main_v39 main_v42 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    nullary main_c_9 (constantI S_ 32 0#32),
    unary main_c_9 main_v43 (broadcastInDim S1300000 ![] bcast_S_S1300000 : (⟨S_, .i32⟩ : BufTy).Contents (Elt F) → (⟨S1300000, .i32⟩ : BufTy).Contents (Elt F)),
    binary main_v3 main_v43 main_v44 (cmpi .slt : (⟨S1300000, .i32⟩ : BufTy).Contents (Elt F) → (⟨S1300000, .i32⟩ : BufTy).Contents (Elt F) → (⟨S1300000, .i1⟩ : BufTy).Contents (Elt F)),
    nullary main_c_10 (constantI S_ 32 100000#32),
    unary main_c_10 main_v45 (broadcastInDim S1300000 ![] bcast_S_S1300000 : (⟨S_, .i32⟩ : BufTy).Contents (Elt F) → (⟨S1300000, .i32⟩ : BufTy).Contents (Elt F)),
    binary main_v3 main_v45 main_v46 (addi : (⟨S1300000, .i32⟩ : BufTy).Contents (Elt F) → (⟨S1300000, .i32⟩ : BufTy).Contents (Elt F) → (⟨S1300000, .i32⟩ : BufTy).Contents (Elt F)),
    ternary main_v44 main_v46 main_v3 main_v47 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v47 main_v48 (broadcastInDim S1300000x1 ![0] bcast_S1300000_S1300000x1_0 : (⟨S1300000, .i32⟩ : BufTy).Contents (Elt F) → (⟨S1300000x1, .i32⟩ : BufTy).Contents (Elt F)),
    binary main_v42 main_v48 main_v49 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v29 main_v50 (broadcastInDim S1300000x1 ![0] bcast_S1300000_S1300000x1_0 : (⟨S1300000, .f32⟩ : BufTy).Contents (Elt F) → (⟨S1300000x1, .f32⟩ : BufTy).Contents (Elt F)),
    unary main_v50 main_v51 (broadcastInDim S1300000x64 ![0, 1] bcast_S1300000x1_S1300000x64_0_1 : (⟨S1300000x1, .f32⟩ : BufTy).Contents (Elt F) → (⟨S1300000x64, .f32⟩ : BufTy).Contents (Elt F)),
    binary main_v49 main_v51 main_v52 (mulf : (⟨S1300000x64, .f32⟩ : BufTy).Contents (Elt F) → (⟨S1300000x64, .f32⟩ : BufTy).Contents (Elt F) → (⟨S1300000x64, .f32⟩ : BufTy).Contents (Elt F)),
    nullary main_cst_11 (constant S_ .f32 0x00000000#32),
    unary main_cst_11 main_v53 (broadcastInDim S100000x64 ![] bcast_S_S100000x64 : (⟨S_, .f32⟩ : BufTy).Contents (Elt F) → (⟨S100000x64, .f32⟩ : BufTy).Contents (Elt F)),
    unary main_v6 main_v54 (broadcastInDim S1300000x1 ![0] bcast_S1300000_S1300000x1_0 : (⟨S1300000, .i32⟩ : BufTy).Contents (Elt F) → (⟨S1300000x1, .i32⟩ : BufTy).Contents (Elt F)),
    ternary main_v53 main_v54 main_v52 main_v55 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_arg2 main_v56 ((transpose S64x40 [1, 0] · transposes_S40x64_S64x40_1_0) : (⟨S40x64, .f32⟩ : BufTy).Contents (Elt F) → (⟨S64x40, .f32⟩ : BufTy).Contents (Elt F)),
    binary main_v55 main_v56 main_v57 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg3 main_v58 (broadcastInDim S1x40 ![1] bcast_S40_S1x40_1 : (⟨S40, .f32⟩ : BufTy).Contents (Elt F) → (⟨S1x40, .f32⟩ : BufTy).Contents (Elt F)),
    unary main_v58 main_v59 (broadcastInDim S100000x40 ![0, 1] bcast_S1x40_S100000x40_0_1 : (⟨S1x40, .f32⟩ : BufTy).Contents (Elt F) → (⟨S100000x40, .f32⟩ : BufTy).Contents (Elt F)),
    binary main_v57 main_v59 main_v60 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0xFF800000#32),
    TRef.binary (TRef.of (T := ⟨S100000x40, .f32⟩) main_v60) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v60) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v61) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The result, stage by stage -/

/-- Row `row` of the edge list (0: sources, 1: targets) followed by the self loops 0 … 99999: 1300000 node indices. -/
def endpoints (row : Fin 2 → Nat) (hrow : S2x1200000.Slices row S1x1200000)
    (x1 : (⟨S2x1200000, .i32⟩ : BufTy).Contents (Elt F)) : (⟨S1300000, .i32⟩ : BufTy).Contents (Elt F) :=
  concatenate S1300000 0 [⟨S1200000, shapeCast S1200000 (extractStridedSlice S1x1200000 row x1 hrow) shapeCasts_S1x1200000_S1200000⟩,
    ⟨S100000, iotaInDim S100000 32 0⟩] concatenates_S1200000_S100000_S1300000_d0

/-- Message sources: row 0 of the edge list, then the self loops. -/
def src (x1 : (⟨S2x1200000, .i32⟩ : BufTy).Contents (Elt F)) : (⟨S1300000, .i32⟩ : BufTy).Contents (Elt F) :=
  endpoints (F := F) ![0, 0] slices_S2x1200000_S1x1200000_0_0 x1

/-- Aggregation targets: row 1 of the edge list, then the self loops. -/
def dst (x1 : (⟨S2x1200000, .i32⟩ : BufTy).Contents (Elt F)) : (⟨S1300000, .i32⟩ : BufTy).Contents (Elt F) :=
  endpoints (F := F) ![1, 0] slices_S2x1200000_S1x1200000_1_0 x1

/-- A vector of 1300000 node indices as the one-column index array a gather or scatter takes. -/
def column (v : (⟨S1300000, .i32⟩ : BufTy).Contents (Elt F)) : (⟨S1300000x1, .i32⟩ : BufTy).Contents (Elt F) :=
  broadcastInDim S1300000x1 ![0] bcast_S1300000_S1300000x1_0 v

/-- The in-degree of every node (self loop included): ones scatter-added at the targets, from zero. -/
def deg (x1 : (⟨S2x1200000, .i32⟩ : BufTy).Contents (Elt F)) : (⟨S100000, .f32⟩ : BufTy).Contents (Elt F) :=
  Host.scatterAdd (F := F) scatter_S100000_S1300000x1_S1300000_n_0_0_1
    (broadcastInDim S100000 ![] bcast_S_S100000 (constant (F := F) S_ .f32 0x00000000#32))
    (column (F := F) (dst (F := F) x1))
    (broadcastInDim S1300000 ![] bcast_S_S1300000 (constant (F := F) S_ .f32 0x3F800000#32))

/-- deg^(-1/2) where the degree is positive, 0 elsewhere. -/
def dinv (x1 : (⟨S2x1200000, .i32⟩ : BufTy).Contents (Elt F)) : (⟨S100000, .f32⟩ : BufTy).Contents (Elt F) :=
  select (cmpf (F := F) .ogt (deg (F := F) x1) (broadcastInDim S100000 ![] bcast_S_S100000 (constant (F := F) S_ .f32 0x00000000#32)))
    (Host.rsqrt (F := F) (deg (F := F) x1))
    (broadcastInDim S100000 ![] bcast_S_S100000 (id (constant (F := F) S_ .f32 0x00000000#32)))

/-- jnp's index normalisation: a negative index is moved up by the number of nodes. -/
def wrapIdx (v : (⟨S1300000, .i32⟩ : BufTy).Contents (Elt F)) : (⟨S1300000, .i32⟩ : BufTy).Contents (Elt F) :=
  select (cmpi .slt v (broadcastInDim S1300000 ![] bcast_S_S1300000 (constantI S_ 32 0#32)))
    (addi v (broadcastInDim S1300000 ![] bcast_S_S1300000 (constantI S_ 32 100000#32))) v

/-- The symmetric normalisation of every edge: dinv at its source times dinv at its target. -/
def norm (x1 : (⟨S2x1200000, .i32⟩ : BufTy).Contents (Elt F)) : (⟨S1300000, .f32⟩ : BufTy).Contents (Elt F) :=
  mulf (F := F)
    (Host.gather gather_S100000_S1300000x1_S1300000_n_0_n_n_0_1_1 (dinv (F := F) x1) (column (F := F) (wrapIdx (F := F) (src (F := F) x1))))
    (Host.gather gather_S100000_S1300000x1_S1300000_n_0_n_n_0_1_1 (dinv (F := F) x1) (column (F := F) (wrapIdx (F := F) (dst (F := F) x1))))

/-- One propagation step: every edge carries its source's feature row scaled by the edge's `norm`, and the rows are
    summed at the edge's target, from zero. -/
def hop (x1 : (⟨S2x1200000, .i32⟩ : BufTy).Contents (Elt F)) (x : (⟨S100000x64, .f32⟩ : BufTy).Contents (Elt F)) :
    (⟨S100000x64, .f32⟩ : BufTy).Contents (Elt F) :=
  Host.scatterAdd (F := F) scatter_S100000x64_S1300000x1_S1300000x64_1_0_0_1
    (broadcastInDim S100000x64 ![] bcast_S_S100000x64 (constant (F := F) S_ .f32 0x00000000#32))
    (column (F := F) (dst (F := F) x1))
    (mulf (F := F)
      (Host.gather gather_S100000x64_S1300000x1_S1300000x64_1_0_n_n_0_1_164 x (column (F := F) (wrapIdx (F := F) (src (F := F) x1))))
      (broadcastInDim S1300000x64 ![0, 1] bcast_S1300000x1_S1300000x64_0_1
        (broadcastInDim S1300000x1 ![0] bcast_S1300000_S1300000x1_0 (norm (F := F) x1))))

/-- The features after the two propagation steps. -/
def propagated (x0 : (⟨S100000x64, .f32⟩ : BufTy).Contents (Elt F)) (x1 : (⟨S2x1200000, .i32⟩ : BufTy).Contents (Elt F)) :
    (⟨S100000x64, .f32⟩ : BufTy).Contents (Elt F) :=
  hop (F := F) x1 (hop (F := F) x1 x0)

/-- The weights transposed: entry `(k, c)` is the weight of feature `k` for class `c`. -/
def weightsT (x2 : (⟨S40x64, .f32⟩ : BufTy).Contents (Elt F)) : (⟨S64x40, .f32⟩ : BufTy).Contents (Elt F) :=
  transpose S64x40 [1, 0] x2 transposes_S40x64_S64x40_1_0

/-- The logits: features times transposed weights, plus the bias row repeated for every node. -/
def logits (xp : (⟨S100000x64, .f32⟩ : BufTy).Contents (Elt F)) (wt : (⟨S64x40, .f32⟩ : BufTy).Contents (Elt F))
    (x3 : (⟨S40, .f32⟩ : BufTy).Contents (Elt F)) : (⟨S100000x40, .f32⟩ : BufTy).Contents (Elt F) :=
  addf (F := F) (Host.dotGeneral (F := F) dot_S100000x64_S64x40_S100000x40_1_0_0_1_n_n none xp wt)
    (broadcastInDim S100000x40 ![0, 1] bcast_S1x40_S100000x40_0_1 (broadcastInDim S1x40 ![1] bcast_S40_S1x40_1 x3))

/-- The row maxima of an array of logits, as the program takes them: a max-reduce along the classes from −∞, then one
    more maximum with −∞. -/
def rowMaxima (L : (⟨S100000x40, .f32⟩ : BufTy).Contents (Elt F)) : (⟨S100000, .f32⟩ : BufTy).Contents (Elt F) :=
  maximumf (F := F) (broadcastInDim S100000 ![] bcast_S_S100000 (constant (F := F) S_ .f32 0xFF800000#32))
    (Host.reduce FloatOps.maximumf L (constant (F := F) S_ .f32 0xFF800000#32) reducesTo_S100000x40_S100000_d1 h_S_)

/-- A vector of 100000 per-node values repeated along the 40 classes. -/
def alongClasses (v : (⟨S100000x1, .f32⟩ : BufTy).Contents (Elt F)) : (⟨S100000x40, .f32⟩ : BufTy).Contents (Elt F) :=
  broadcastInDim S100000x40 ![0, 1] bcast_S100000x1_S100000x40_0_1 v

/-- The logits shifted by their row maxima. -/
def shifted (L : (⟨S100000x40, .f32⟩ : BufTy).Contents (Elt F)) : (⟨S100000x40, .f32⟩ : BufTy).Contents (Elt F) :=
  subf (F := F) L (alongClasses (F := F) (broadcastInDim S100000x1 ![0] bcast_S100000_S100000x1_0 (rowMaxima (F := F) L)))

/-- Log-softmax along the classes: the shifted logits minus the logarithm of the row sums of their exponentials. -/
def logSoftmaxRows (L : (⟨S100000x40, .f32⟩ : BufTy).Contents (Elt F)) : (⟨S100000x40, .f32⟩ : BufTy).Contents (Elt F) :=
  subf (F := F) (shifted (F := F) L)
    (alongClasses (F := F) (Host.log (F := F) (broadcastInDim S100000x1 ![0] bcast_S100000_S100000x1_0
      (Host.reduceAdd (F := F) (Host.exp (F := F) (shifted (F := F) L)) (constant (F := F) S_ .f32 0x00000000#32)
        reducesTo_S100000x40_S100000_d1 h_S_))))

/-- The reference's result as a function of its four argument arrays. -/
def result (x0 : (⟨S100000x64, .f32⟩ : BufTy).Contents (Elt F)) (x1 : (⟨S2x1200000, .i32⟩ : BufTy).Contents (Elt F))
    (x2 : (⟨S40x64, .f32⟩ : BufTy).Contents (Elt F)) (x3 : (⟨S40, .f32⟩ : BufTy).Contents (Elt F)) :
    (⟨S100000x40, .f32⟩ : BufTy).Contents (Elt F) :=
  logSoftmaxRows (F := F) (logits (F := F) (propagated (F := F) x0 x1) (weightsT (F := F) x2) x3)

/-! ## The run, in two stretches -/

/-- The first stretch: the 77 operations up to and including the logits. -/
abbrev opsMain : List (HloOp τ sig (Elt F)) :=
  [ nullary main_v0 (iotaInDim S100000 32 0),
    unary main_arg1 main_v1 ((extractStridedSlice S1x1200000 ![0, 0] · slices_S2x1200000_S1x1200000_0_0) : (⟨S2x1200000, .i32⟩ : BufTy).Contents (Elt F) → (⟨S1x1200000, .i32⟩ : BufTy).Contents (Elt F)),
    reshape main_v1 main_v2 rfl shapeCasts_S1x1200000_S1200000,
    binary main_v2 main_v0 main_v3 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    unary main_arg1 main_v4 ((extractStridedSlice S1x1200000 ![1, 0] · slices_S2x1200000_S1x1200000_1_0) : (⟨S2x1200000, .i32⟩ : BufTy).Contents (Elt F) → (⟨S1x1200000, .i32⟩ : BufTy).Contents (Elt F)),
    reshape main_v4 main_v5 rfl shapeCasts_S1x1200000_S1200000,
    binary main_v5 main_v0 main_v6 ((fun a b => concatenate S1300000 0 [⟨S1200000, a⟩, ⟨S100000, b⟩] concatenates_S1200000_S100000_S1300000_d0) : (⟨S1200000, .i32⟩ : BufTy).Contents (Elt F) → (⟨S100000, .i32⟩ : BufTy).Contents (Elt F) → (⟨S1300000, .i32⟩ : BufTy).Contents (Elt F)),
    nullary main_cst (constant S_ .f32 0x3F800000#32),
    unary main_cst main_v7 (broadcastInDim S1300000 ![] bcast_S_S1300000 : (⟨S_, .f32⟩ : BufTy).Contents (Elt F) → (⟨S1300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1300000x1 ![0] bcast_S1300000_S1300000x1_0 : (⟨S1300000, .i32⟩ : BufTy).Contents (Elt F) → (⟨S1300000x1, .i32⟩ : BufTy).Contents (Elt F)),
    ternary main_v8 main_v9 main_v7 main_v10 ((fun x i u => Host.scatterAdd scatter_S100000_S1300000x1_S1300000_n_0_0_1 x i u) : (⟨S100000, .f32⟩ : BufTy).Contents (Elt F) → (⟨S1300000x1, .i32⟩ : BufTy).Contents (Elt F) → (⟨S1300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1300000 ![] bcast_S_S1300000 : (⟨S_, .i32⟩ : BufTy).Contents (Elt F) → (⟨S1300000, .i32⟩ : BufTy).Contents (Elt F)),
    binary main_v3 main_v15 main_v16 (cmpi .slt : (⟨S1300000, .i32⟩ : BufTy).Contents (Elt F) → (⟨S1300000, .i32⟩ : BufTy).Contents (Elt F) → (⟨S1300000, .i1⟩ : BufTy).Contents (Elt F)),
    nullary main_c_3 (constantI S_ 32 100000#32),
    unary main_c_3 main_v17 (broadcastInDim S1300000 ![] bcast_S_S1300000 : (⟨S_, .i32⟩ : BufTy).Contents (Elt F) → (⟨S1300000, .i32⟩ : BufTy).Contents (Elt F)),
    binary main_v3 main_v17 main_v18 (addi : (⟨S1300000, .i32⟩ : BufTy).Contents (Elt F) → (⟨S1300000, .i32⟩ : BufTy).Contents (Elt F) → (⟨S1300000, .i32⟩ : BufTy).Contents (Elt F)),
    ternary main_v16 main_v18 main_v3 main_v19 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v19 main_v20 (broadcastInDim S1300000x1 ![0] bcast_S1300000_S1300000x1_0 : (⟨S1300000, .i32⟩ : BufTy).Contents (Elt F) → (⟨S1300000x1, .i32⟩ : BufTy).Contents (Elt F)),
    binary main_v14 main_v20 main_v21 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    nullary main_c_4 (constantI S_ 32 0#32),
    unary main_c_4 main_v22 (broadcastInDim S1300000 ![] bcast_S_S1300000 : (⟨S_, .i32⟩ : BufTy).Contents (Elt F) → (⟨S1300000, .i32⟩ : BufTy).Contents (Elt F)),
    binary main_v6 main_v22 main_v23 (cmpi .slt : (⟨S1300000, .i32⟩ : BufTy).Contents (Elt F) → (⟨S1300000, .i32⟩ : BufTy).Contents (Elt F) → (⟨S1300000, .i1⟩ : BufTy).Contents (Elt F)),
    nullary main_c_5 (constantI S_ 32 100000#32),
    unary main_c_5 main_v24 (broadcastInDim S1300000 ![] bcast_S_S1300000 : (⟨S_, .i32⟩ : BufTy).Contents (Elt F) → (⟨S1300000, .i32⟩ : BufTy).Contents (Elt F)),
    binary main_v6 main_v24 main_v25 (addi : (⟨S1300000, .i32⟩ : BufTy).Contents (Elt F) → (⟨S1300000, .i32⟩ : BufTy).Contents (Elt F) → (⟨S1300000, .i32⟩ : BufTy).Contents (Elt F)),
    ternary main_v23 main_v25 main_v6 main_v26 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v26 main_v27 (broadcastInDim S1300000x1 ![0] bcast_S1300000_S1300000x1_0 : (⟨S1300000, .i32⟩ : BufTy).Contents (Elt F) → (⟨S1300000x1, .i32⟩ : BufTy).Contents (Elt F)),
    binary main_v14 main_v27 main_v28 ((fun x i => Host.gather gather_S100000_S1300000x1_S1300000_n_0_n_n_0_1_1 x i) : (⟨S100000, .f32⟩ : BufTy).Contents (Elt F) → (⟨S1300000x1, .i32⟩ : BufTy).Contents (Elt F) → (⟨S1300000, .f32⟩ : BufTy).Contents (Elt F)),
    binary main_v21 main_v28 main_v29 (mulf : (⟨S1300000, .f32⟩ : BufTy).Contents (Elt F) → (⟨S1300000, .f32⟩ : BufTy).Contents (Elt F) → (⟨S1300000, .f32⟩ : BufTy).Contents (Elt F)),
    nullary main_c_6 (constantI S_ 32 0#32),
    unary main_c_6 main_v30 (broadcastInDim S1300000 ![] bcast_S_S1300000 : (⟨S_, .i32⟩ : BufTy).Contents (Elt F) → (⟨S1300000, .i32⟩ : BufTy).Contents (Elt F)),
    binary main_v3 main_v30 main_v31 (cmpi .slt : (⟨S1300000, .i32⟩ : BufTy).Contents (Elt F) → (⟨S1300000, .i32⟩ : BufTy).Contents (Elt F) → (⟨S1300000, .i1⟩ : BufTy).Contents (Elt F)),
    nullary main_c_7 (constantI S_ 32 100000#32),
    unary main_c_7 main_v32 (broadcastInDim S1300000 ![] bcast_S_S1300000 : (⟨S_, .i32⟩ : BufTy).Contents (Elt F) → (⟨S1300000, .i32⟩ : BufTy).Contents (Elt F)),
    binary main_v3 main_v32 main_v33 (addi : (⟨S1300000, .i32⟩ : BufTy).Contents (Elt F) → (⟨S1300000, .i32⟩ : BufTy).Contents (Elt F) → (⟨S1300000, .i32⟩ : BufTy).Contents (Elt F)),
    ternary main_v31 main_v33 main_v3 main_v34 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v34 main_v35 (broadcastInDim S1300000x1 ![0] bcast_S1300000_S1300000x1_0 : (⟨S1300000, .i32⟩ : BufTy).Contents (Elt F) → (⟨S1300000x1, .i32⟩ : BufTy).Contents (Elt F)),
    binary main_arg0 main_v35 main_v36 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v29 main_v37 (broadcastInDim S1300000x1 ![0] bcast_S1300000_S1300000x1_0 : (⟨S1300000, .f32⟩ : BufTy).Contents (Elt F) → (⟨S1300000x1, .f32⟩ : BufTy).Contents (Elt F)),
    unary main_v37 main_v38 (broadcastInDim S1300000x64 ![0, 1] bcast_S1300000x1_S1300000x64_0_1 : (⟨S1300000x1, .f32⟩ : BufTy).Contents (Elt F) → (⟨S1300000x64, .f32⟩ : BufTy).Contents (Elt F)),
    binary main_v36 main_v38 main_v39 (mulf : (⟨S1300000x64, .f32⟩ : BufTy).Contents (Elt F) → (⟨S1300000x64, .f32⟩ : BufTy).Contents (Elt F) → (⟨S1300000x64, .f32⟩ : BufTy).Contents (Elt F)),
    nullary main_cst_8 (constant S_ .f32 0x00000000#32),
    unary main_cst_8 main_v40 (broadcastInDim S100000x64 ![] bcast_S_S100000x64 : (⟨S_, .f32⟩ : BufTy).Contents (Elt F) → (⟨S100000x64, .f32⟩ : BufTy).Contents (Elt F)),
    unary main_v6 main_v41 (broadcastInDim S1300000x1 ![0] bcast_S1300000_S1300000x1_0 : (⟨S1300000, .i32⟩ : BufTy).Contents (Elt F) → (⟨S1300000x1, .i32⟩ : BufTy).Contents (Elt F)),
    ternary main_v40 main_v41 main_v39 main_v42 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    nullary main_c_9 (constantI S_ 32 0#32),
    unary main_c_9 main_v43 (broadcastInDim S1300000 ![] bcast_S_S1300000 : (⟨S_, .i32⟩ : BufTy).Contents (Elt F) → (⟨S1300000, .i32⟩ : BufTy).Contents (Elt F)),
    binary main_v3 main_v43 main_v44 (cmpi .slt : (⟨S1300000, .i32⟩ : BufTy).Contents (Elt F) → (⟨S1300000, .i32⟩ : BufTy).Contents (Elt F) → (⟨S1300000, .i1⟩ : BufTy).Contents (Elt F)),
    nullary main_c_10 (constantI S_ 32 100000#32),
    unary main_c_10 main_v45 (broadcastInDim S1300000 ![] bcast_S_S1300000 : (⟨S_, .i32⟩ : BufTy).Contents (Elt F) → (⟨S1300000, .i32⟩ : BufTy).Contents (Elt F)),
    binary main_v3 main_v45 main_v46 (addi : (⟨S1300000, .i32⟩ : BufTy).Contents (Elt F) → (⟨S1300000, .i32⟩ : BufTy).Contents (Elt F) → (⟨S1300000, .i32⟩ : BufTy).Contents (Elt F)),
    ternary main_v44 main_v46 main_v3 main_v47 (select : (⟨S1300000, .i1⟩ : BufTy).Contents (Elt F) → (⟨S1300000, .i32⟩ : BufTy).Contents (Elt F) → (⟨S1300000, .i32⟩ : BufTy).Contents (Elt F) → (⟨S1300000, .i32⟩ : BufTy).Contents (Elt F)),
    unary main_v47 main_v48 (broadcastInDim S1300000x1 ![0] bcast_S1300000_S1300000x1_0 : (⟨S1300000, .i32⟩ : BufTy).Contents (Elt F) → (⟨S1300000x1, .i32⟩ : BufTy).Contents (Elt F)),
    binary main_v42 main_v48 main_v49 ((fun x i => Host.gather gather_S100000x64_S1300000x1_S1300000x64_1_0_n_n_0_1_164 x i) : (⟨S100000x64, .f32⟩ : BufTy).Contents (Elt F) → (⟨S1300000x1, .i32⟩ : BufTy).Contents (Elt F) → (⟨S1300000x64, .f32⟩ : BufTy).Contents (Elt F)),
    unary main_v29 main_v50 (broadcastInDim S1300000x1 ![0] bcast_S1300000_S1300000x1_0 : (⟨S1300000, .f32⟩ : BufTy).Contents (Elt F) → (⟨S1300000x1, .f32⟩ : BufTy).Contents (Elt F)),
    unary main_v50 main_v51 (broadcastInDim S1300000x64 ![0, 1] bcast_S1300000x1_S1300000x64_0_1 : (⟨S1300000x1, .f32⟩ : BufTy).Contents (Elt F) → (⟨S1300000x64, .f32⟩ : BufTy).Contents (Elt F)),
    binary main_v49 main_v51 main_v52 (mulf : (⟨S1300000x64, .f32⟩ : BufTy).Contents (Elt F) → (⟨S1300000x64, .f32⟩ : BufTy).Contents (Elt F) → (⟨S1300000x64, .f32⟩ : BufTy).Contents (Elt F)),
    nullary main_cst_11 (constant S_ .f32 0x00000000#32),
    unary main_cst_11 main_v53 (broadcastInDim S100000x64 ![] bcast_S_S100000x64 : (⟨S_, .f32⟩ : BufTy).Contents (Elt F) → (⟨S100000x64, .f32⟩ : BufTy).Contents (Elt F)),
    unary main_v6 main_v54 (broadcastInDim S1300000x1 ![0] bcast_S1300000_S1300000x1_0 : (⟨S1300000, .i32⟩ : BufTy).Contents (Elt F) → (⟨S1300000x1, .i32⟩ : BufTy).Contents (Elt F)),
    ternary main_v53 main_v54 main_v52 main_v55 ((fun x i u => Host.scatterAdd scatter_S100000x64_S1300000x1_S1300000x64_1_0_0_1 x i u) : (⟨S100000x64, .f32⟩ : BufTy).Contents (Elt F) → (⟨S1300000x1, .i32⟩ : BufTy).Contents (Elt F) → (⟨S1300000x64, .f32⟩ : BufTy).Contents (Elt F) → (⟨S100000x64, .f32⟩ : BufTy).Contents (Elt F)),
    unary main_arg2 main_v56 ((transpose S64x40 [1, 0] · transposes_S40x64_S64x40_1_0) : (⟨S40x64, .f32⟩ : BufTy).Contents (Elt F) → (⟨S64x40, .f32⟩ : BufTy).Contents (Elt F)),
    binary main_v55 main_v56 main_v57 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg3 main_v58 (broadcastInDim S1x40 ![1] bcast_S40_S1x40_1 : (⟨S40, .f32⟩ : BufTy).Contents (Elt F) → (⟨S1x40, .f32⟩ : BufTy).Contents (Elt F)),
    unary main_v58 main_v59 (broadcastInDim S100000x40 ![0, 1] bcast_S1x40_S100000x40_0_1 : (⟨S1x40, .f32⟩ : BufTy).Contents (Elt F) → (⟨S100000x40, .f32⟩ : BufTy).Contents (Elt F)),
    binary main_v57 main_v59 main_v60 (addf : (⟨S100000x40, .f32⟩ : BufTy).Contents (Elt F) → (⟨S100000x40, .f32⟩ : BufTy).Contents (Elt F) → (⟨S100000x40, .f32⟩ : BufTy).Contents (Elt F)) ]

/-- The second stretch: the 15 operations of the called log-softmax. -/
abbrev opsSoftmax : List (HloOp τ sig (Elt F)) :=
  [ TRef.nullary (TRef.of (T := ⟨S_, .f32⟩) main_call1_cst) (constant S_ .f32 0xFF800000#32),
    TRef.binary (TRef.of (T := ⟨S100000x40, .f32⟩) main_v60) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v60) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v61) subf ]

set_option maxRecDepth 8192 in
/-- @main's operations are the two stretches, one after the other. -/
theorem ops_split : (ops : List (HloOp τ sig (Elt F))) = opsMain ++ opsSoftmax := rfl

set_option maxRecDepth 8192 in
set_option maxHeartbeats 36800000 in
/-- After the first stretch the logits' buffer holds `logits` of the propagated features, the transposed weights and the
    bias. -/
theorem logits_stage (m : (ℓ : Loc nD τ sig) → Buf (Elt F) ℓ) (c : Dev nD) :
    after (opsMain (F := F)) (launchContents m c) (Proc.devRef .tc main_v60)
      = logits (F := F)
          (propagated (F := F) (m ((c.tc : Thread nD τ).loc main_arg0)) (m ((c.tc : Thread nD τ).loc main_arg1)))
          (weightsT (F := F) (m ((c.tc : Thread nD τ).loc main_arg2))) (m ((c.tc : Thread nD τ).loc main_arg3)) := by
  after_results_simp <;> rfl

set_option maxRecDepth 8192 in
set_option maxHeartbeats 1000000 in
/-- The second stretch, from ANY contents `W` of the buffers: the result buffer, read at its value type, ends at the
    log-softmax, along the classes, of whatever the logits' buffer holds, read at its value type. Every transport inside
    the composed term is one half of a pair, removed by `Cert.Lib.ofBuf_toBuf`; what is left is the staged term. -/
theorem softmax_stage (W : Valuation τ sig (Elt F)) :
    (TRef.of (T := ⟨S100000x40, .f32⟩) main_v61).ofBuf (after (opsSoftmax (F := F)) W (Proc.devRef .tc main_v61))
      = logSoftmaxRows (F := F) ((TRef.of (T := ⟨S100000x40, .f32⟩) main_v60).ofBuf (W (Proc.devRef .tc main_v60))) := by
  after_results_simp
  simp only [Cert.Lib.ofBuf_toBuf]
  rfl

/-- Reading the logits' buffer at its value type changes nothing (stated for a variable array, where it is immediate). -/
theorem ofBuf_logits (v : (⟨S100000x40, .f32⟩ : BufTy).Contents (Elt F)) :
    (TRef.of (T := ⟨S100000x40, .f32⟩) main_v60).ofBuf v = v := rfl

/-- Reading the result buffer at its value type changes nothing (stated for a variable array). -/
theorem ofBuf_result (v : (⟨S100000x40, .f32⟩ : BufTy).Contents (Elt F)) :
    (TRef.of (T := ⟨S100000x40, .f32⟩) main_v61).ofBuf v = v := rfl

set_option maxRecDepth 8192 in
set_option maxHeartbeats 36800000 in
/-- On every device, from any memory with zero counters: every weakly fair execution of the reference's @main terminates
    with the result array at `result` of the argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61)
        = result (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v61).trans (by
        rw [ops_split, Cert.Lib.after_append]
        refine (ofBuf_result _).symm.trans ?_
        rw [softmax_stage, ofBuf_logits]
        exact congrArg (logSoftmaxRows (F := F)) (logits_stage m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.HandRun

end
-- ==== Proof.StagesAgree.lean ====
/-
  The kernel program's host stages are the reference's.

  Both programs apply the same host operations to the features and the edge list before anything else: each stage of one
  is the same operation of the same operands as the stage of the other, over shape and dimension records that are
  declared once per program but have the same contents. So the equality is proved stage by stage, each time rewriting the
  earlier stages and the records and comparing what is left, which is then the same term; no gather or scatter is opened.
-/
import proofs.«119533_j84035330114212_1_alg».proof.Proof.KernelStages
import proofs.«119533_j84035330114212_1_alg».proof.Proof.RefRun

noncomputable section

namespace Cert.StagesAgree

open Idealize.ShloMosaic Idealize.ShloMosaic.TcCoe

variable {F : FTy → Type} [FloatOps F]

/-! ## The dimension records -/

theorem degScatter_eq : Cert.KernelIdeal.scatter_S100000_S1300000x1_S1300000_n_0_0_1 = Cert.ReferenceIdeal.scatter_S100000_S1300000x1_S1300000_n_0_0_1 := rfl
theorem dinvGather_eq : Cert.KernelIdeal.gather_S100000_S1300000x1_S1300000_n_0_n_n_0_1_1 = Cert.ReferenceIdeal.gather_S100000_S1300000x1_S1300000_n_0_n_n_0_1_1 := rfl
theorem rowGather_eq : Cert.KernelIdeal.gather_S100000x64_S1300000x1_S1300000x64_1_0_n_n_0_1_164 = Cert.ReferenceIdeal.gather_S100000x64_S1300000x1_S1300000x64_1_0_n_n_0_1_164 := rfl
theorem rowScatter_eq : Cert.KernelIdeal.scatter_S100000x64_S1300000x1_S1300000x64_1_0_0_1 = Cert.ReferenceIdeal.scatter_S100000x64_S1300000x1_S1300000x64_1_0_0_1 := rfl

/-! ## The stages -/

theorem endpoints_eq (row : Fin 2 → Nat) (hK : Cert.KernelIdeal.S2x1200000.Slices row Cert.KernelIdeal.S1x1200000)
    (hR : Cert.ReferenceIdeal.S2x1200000.Slices row Cert.ReferenceIdeal.S1x1200000) (x1 : (⟨Cert.KernelIdeal.S2x1200000, .i32⟩ : BufTy).Contents (Elt F)) :
    Cert.KernelIdeal.HostStages.endpoints (F := F) row hK x1 = Cert.ReferenceIdeal.HandRun.endpoints (F := F) row hR x1 := rfl

theorem src_eq (x1 : (⟨Cert.KernelIdeal.S2x1200000, .i32⟩ : BufTy).Contents (Elt F)) : Cert.KernelIdeal.HostStages.src (F := F) x1 = Cert.ReferenceIdeal.HandRun.src (F := F) x1 :=
  endpoints_eq _ _ _ x1

theorem dst_eq (x1 : (⟨Cert.KernelIdeal.S2x1200000, .i32⟩ : BufTy).Contents (Elt F)) : Cert.KernelIdeal.HostStages.dst (F := F) x1 = Cert.ReferenceIdeal.HandRun.dst (F := F) x1 :=
  endpoints_eq _ _ _ x1

theorem column_eq (v : (⟨Cert.KernelIdeal.S1300000, .i32⟩ : BufTy).Contents (Elt F)) : Cert.KernelIdeal.HostStages.column (F := F) v = Cert.ReferenceIdeal.HandRun.column (F := F) v := rfl

theorem wrapIdx_eq (v : (⟨Cert.KernelIdeal.S1300000, .i32⟩ : BufTy).Contents (Elt F)) : Cert.KernelIdeal.HostStages.wrapIdx (F := F) v = Cert.ReferenceIdeal.HandRun.wrapIdx (F := F) v := rfl

theorem deg_eq (x1 : (⟨Cert.KernelIdeal.S2x1200000, .i32⟩ : BufTy).Contents (Elt F)) : Cert.KernelIdeal.HostStages.deg (F := F) x1 = Cert.ReferenceIdeal.HandRun.deg (F := F) x1 := by
  unfold Cert.KernelIdeal.HostStages.deg Cert.ReferenceIdeal.HandRun.deg
  simp only [dst_eq, column_eq, degScatter_eq]

theorem dinv_eq (x1 : (⟨Cert.KernelIdeal.S2x1200000, .i32⟩ : BufTy).Contents (Elt F)) : Cert.KernelIdeal.HostStages.dinv (F := F) x1 = Cert.ReferenceIdeal.HandRun.dinv (F := F) x1 := by
  unfold Cert.KernelIdeal.HostStages.dinv Cert.ReferenceIdeal.HandRun.dinv
  simp only [deg_eq]

theorem norm_eq (x1 : (⟨Cert.KernelIdeal.S2x1200000, .i32⟩ : BufTy).Contents (Elt F)) : Cert.KernelIdeal.HostStages.norm (F := F) x1 = Cert.ReferenceIdeal.HandRun.norm (F := F) x1 := by
  unfold Cert.KernelIdeal.HostStages.norm Cert.ReferenceIdeal.HandRun.norm
  simp only [dinv_eq, src_eq, dst_eq, wrapIdx_eq, column_eq, dinvGather_eq]

theorem hop_eq (x1 : (⟨Cert.KernelIdeal.S2x1200000, .i32⟩ : BufTy).Contents (Elt F)) (x : (⟨Cert.KernelIdeal.S100000x64, .f32⟩ : BufTy).Contents (Elt F)) :
    Cert.KernelIdeal.HostStages.hop (F := F) x1 x = Cert.ReferenceIdeal.HandRun.hop (F := F) x1 x := by
  unfold Cert.KernelIdeal.HostStages.hop Cert.ReferenceIdeal.HandRun.hop
  simp only [norm_eq, src_eq, dst_eq, wrapIdx_eq, column_eq, rowGather_eq, rowScatter_eq]

/-- THE PROPAGATED FEATURES of the two programs are one function of the features and the edge list. -/
theorem propagated_eq (x0 : (⟨Cert.KernelIdeal.S100000x64, .f32⟩ : BufTy).Contents (Elt F)) (x1 : (⟨Cert.KernelIdeal.S2x1200000, .i32⟩ : BufTy).Contents (Elt F)) :
    Cert.KernelIdeal.HostStages.propagated (F := F) x0 x1 = Cert.ReferenceIdeal.HandRun.propagated (F := F) x0 x1 := by
  unfold Cert.KernelIdeal.HostStages.propagated Cert.ReferenceIdeal.HandRun.propagated
  simp only [hop_eq]

/-- THE TRANSPOSED WEIGHTS of the two programs are one function of the weights. -/
theorem weightsT_eq (x2 : (⟨Cert.KernelIdeal.S40x64, .f32⟩ : BufTy).Contents (Elt F)) : Cert.KernelIdeal.HostStages.weightsT (F := F) x2 = Cert.ReferenceIdeal.HandRun.weightsT (F := F) x2 := rfl

end Cert.StagesAgree

end
-- ==== Proof.KernelMeetsRef.lean ====
/-
  The kernel's result array in the reference's terms.

  The region's three input arrays are the kernel program's host stages of the arguments (`HostValue`), and those stages are
  the reference's (`StagesAgree`); the bias row's entry `(0, d)` is the bias vector's entry `d`. So the head function of the
  arrays the region finds is the head function of the reference's propagated features, the reference's transposed weights
  and the argument bias — the very function the reference's result is.
-/
import proofs.«119533_j84035330114212_1_alg».proof.Proof.KernelArray
import proofs.«119533_j84035330114212_1_alg».proof.Proof.KernelHost
import proofs.«119533_j84035330114212_1_alg».proof.Proof.StagesAgree

noncomputable section

namespace Cert.KernelIdeal.MeetsRef

open Cert.KernelIdeal Cert.KernelIdeal.Gen Cert.KernelIdeal.ArrayValue Cert.KernelIdeal.HostValue
open Idealize.ShloMosaic Idealize.ShloMosaic.TcCoe Idealize.ShloMosaic.ValueIdx Idealize.SL.Sem Cert.HeadSpec

variable (m : (ℓ : Loc nD τ sig) → Buf (Elt Ideal) ℓ)

/-- The feature window's array is the reference's propagated features of the arguments. -/
theorem features_ref (c : Dev nD) :
    (V m c (Pipeline.arrRef spec0 0) : (⟨2, ![100000, 64]⟩ : Shape).Idx → EReal)
      = Cert.ReferenceIdeal.HandRun.propagated (F := Ideal) (m ((c : Thread nD τ).loc main_arg0)) (m ((c : Thread nD τ).loc main_arg1)) :=
  (features_eq (F := Ideal) m c).trans (Cert.StagesAgree.propagated_eq _ _)

/-- The weight window's array is the reference's transposed weights of the argument. -/
theorem weights_ref (c : Dev nD) :
    (V m c (Pipeline.arrRef spec0 1) : (⟨2, ![64, 40]⟩ : Shape).Idx → EReal)
      = Cert.ReferenceIdeal.HandRun.weightsT (F := Ideal) (m ((c : Thread nD τ).loc main_arg2)) :=
  (weights_eq (F := Ideal) m c).trans (Cert.StagesAgree.weightsT_eq _)

/-- The bias window's row holds the argument bias: entry `(0, d)` is the bias of class `d`. -/
theorem bias_ref (c : Dev nD) (d : Fin 40) :
    (V m c (Pipeline.arrRef spec0 2) : (⟨2, ![1, 40]⟩ : Shape).Idx → EReal) (ix2 (0 : Fin 1) d)
      = (m ((c : Thread nD τ).loc main_arg3) : (⟨1, ![40]⟩ : Shape).Idx → EReal) (ix1 d) :=
  (congrFun (biasRow_eq (F := Ideal) m c) (ix2 (0 : Fin 1) d)).trans (row_of_vector (F := Ideal) _ d)

/-- THE REGION'S HEAD FUNCTION is the head function of the reference's stages of the arguments. -/
theorem region_head (c : Dev nD) :
    headOfRegion m c
      = head (Cert.ReferenceIdeal.HandRun.propagated (F := Ideal) (m ((c : Thread nD τ).loc main_arg0)) (m ((c : Thread nD τ).loc main_arg1)))
          (Cert.ReferenceIdeal.HandRun.weightsT (F := Ideal) (m ((c : Thread nD τ).loc main_arg2)))
          (fun d => (m ((c : Thread nD τ).loc main_arg3) : (⟨1, ![40]⟩ : Shape).Idx → EReal) (ix1 d)) := by
  unfold headOfRegion
  exact head_congr (features_ref m c) (weights_ref m c) (funext fun d => bias_ref m c d)

end Cert.KernelIdeal.MeetsRef

end
-- ==== Proof.RefHead.lean ====
/-
  The reference's result array is the head function of its propagated features, its transposed weights and its bias.

  The stages from the logits on are read index by index. The logits at `(r, c)` are the sum over the 64 features of the
  propagated features at `(r, k)` times the transposed weights at `(k, c)`, plus the bias of `c` (the bias vector is made a
  row and repeated for every node). Log-softmax along the classes takes a row maximum — a fold of `max` from −∞, followed
  by one more `max` with −∞, which `max_fold_max_self` absorbs —, shifts the row by it, sums the exponentials from the
  float zero (`zero_add`), takes the logarithm and subtracts. So the result at `(r, c)` is `Cert.HeadSpec.logSoftmax` of row
  `r`'s logits at `c`. The propagated features and the transposed weights stay the arrays they are: nothing here depends on
  how they were computed.
-/
import proofs.«119533_j84035330114212_1_alg».proof.Proof.RefRun
import proofs.«119533_j84035330114212_1_alg».proof.Proof.HeadSpec
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RefHead

open Cert.ReferenceIdeal Cert.ReferenceIdeal.Gen Cert.ReferenceIdeal.HandRun
open Idealize.ShloMosaic Idealize.ShloMosaic.TcCoe Idealize.ShloMosaic.ValueIdx Cert.HeadSpec

/-! ## The logits -/

/-- Coordinate 0 of the left operand's index is the output's row. -/
theorem lhs_row (i : S100000x40.Idx) (q : dot_S100000x64_S64x40_S100000x40_1_0_0_1_n_n.contr.Idx) :
    (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl

/-- Coordinate 1 of the right operand's index is the output's column. -/
theorem rhs_col (i : S100000x40.Idx) (q : dot_S100000x64_S64x40_S100000x40_1_0_0_1_n_n.contr.Idx) :
    (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl

/-- The host's matrix product at `(r, c)`: the sum over the 64 features. -/
theorem dot_at (xp : FVec Ideal S100000x64 .f32) (wt : FVec Ideal S64x40 .f32) (r : Fin 100000) (c : Fin 40) :
    Host.dotGeneral (F := Ideal) dot_S100000x64_S64x40_S100000x40_1_0_0_1_n_n none xp wt (ix2 r c)
      = ∑ k : Fin 64, xp (ix2 r k) * wt (ix2 k c) := by
  simp only [Host.dotGeneral]
  rw [Ideal.dotGeneral_apply,
    ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx (ix2 r c)
      ((contrEquiv1 dot_S100000x64_S64x40_S100000x40_1_0_0_1_n_n 64 rfl rfl).symm k) = ix2 r k := funext fun ax => Fin.ext (by
    match ax with
    | ⟨0, _⟩ => exact lhs_row _ _
    | ⟨1, _⟩ => exact (dot_S100000x64_S64x40_S100000x40_1_0_0_1_n_n.lhsIdx_val_of_single rfl _ _).trans hk)
  have er : dot_S100000x64_S64x40_S100000x40_1_0_0_1_n_n.rhsIdx (ix2 r c)
      ((contrEquiv1 dot_S100000x64_S64x40_S100000x40_1_0_0_1_n_n 64 rfl rfl).symm k) = ix2 k c := funext fun ax => Fin.ext (by
    match ax with
    | ⟨0, _⟩ => exact (dot_S100000x64_S64x40_S100000x40_1_0_0_1_n_n.rhsIdx_val_of_single rfl _ _).trans hk
    | ⟨1, _⟩ => exact rhs_col _ _)
  rw [el, er]

/-- The bias vector made a row and repeated for every node reads, at `(r, c)`, the bias of class `c`. -/
theorem biasRows_at (x3 : FVec Ideal S40 .f32) (r : Fin 100000) (c : Fin 40) :
    broadcastInDim S100000x40 ![0, 1] bcast_S1x40_S100000x40_0_1 (broadcastInDim S1x40 ![1] bcast_S40_S1x40_1 x3) (ix2 r c)
      = x3 (ix1 c) :=
  (broadcastInDim_apply _ bcast_S1x40_S100000x40_0_1 (broadcastInDim S1x40 ![1] bcast_S40_S1x40_1 x3) (ix2 r c)
      (ix2 (0 : Fin 1) c) (fun ax => match ax with
    | ⟨0, _⟩ => by show 0 = if (1 : Nat) = 1 then 0 else r.val; rw [if_pos rfl]
    | ⟨1, _⟩ => by show c.val = if (40 : Nat) = 1 then 0 else c.val; rw [if_neg (by decide)])).trans
  (broadcastInDim_apply _ bcast_S40_S1x40_1 x3 (ix2 (0 : Fin 1) c) (ix1 c) (fun ax => match ax with
    | ⟨0, _⟩ => by show c.val = if (40 : Nat) = 1 then 0 else c.val; rw [if_neg (by decide)]))

/-- The reference's logits at `(r, c)`. -/
theorem logits_apply (xp : FVec Ideal S100000x64 .f32) (wt : FVec Ideal S64x40 .f32) (x3 : FVec Ideal S40 .f32)
    (r : Fin 100000) (c : Fin 40) :
    logits (F := Ideal) xp wt x3 (ix2 r c) = logit xp wt (fun d => x3 (ix1 d)) r c := by
  unfold logits
  rw [addf_apply, dot_at, biasRows_at]
  rfl

/-! ## Log-softmax along the classes -/

/-- The index of node `r` with class `k` put back on the reduced axis is `(r, k)`. -/
theorem lift_class (h : S100000x40.Reduces [1] S100000) (r : Fin 100000) (k : Fin (S100000x40.size 1)) :
    h.lift (ix1 r) k = ix2 r (⟨k.val, k.isLt⟩ : Fin 40) := by
  funext ax; apply Fin.ext
  match ax with | ⟨0, _⟩ => rfl | ⟨1, _⟩ => rfl

/-- The row maximum at node `r`: the fold of `max` from −∞ over the row. The program's further `max` with −∞ changes
    nothing, since the fold already dominates the value it started from. -/
theorem rowMaxima_apply (L : FVec Ideal S100000x40 .f32) (r : Fin 100000) :
    rowMaxima (F := Ideal) L (ix1 r) = rowMax (fun c => L (ix2 r c)) := by
  have hR : S100000x40.Reduces [1] S100000 := by decide
  have hfold : Host.reduce (FloatOps.maximumf (F := Ideal) (φ := .f32)) L (constant (F := Ideal) S_ .f32 0xFF800000#32)
        reducesTo_S100000x40_S100000_d1 h_S_ (ix1 r)
      = (Finset.univ : Finset (Fin 40)).fold max (Ideal.ofBits .f32 0xFF800000#32) (fun c => L (ix2 r c)) := by
    refine (Host.reduce_eq_fold_single (FloatOps.maximumf (F := Ideal) (φ := .f32)) L
      (constant (F := Ideal) S_ .f32 0xFF800000#32) reducesTo_S100000x40_S100000_d1 hR h_S_ (ix1 r)).trans ?_
    have hf : (L ∘ hR.lift (ix1 r)) = fun c : Fin 40 => L (ix2 r c) := funext fun k => congrArg L (lift_class hR r k)
    rw [hf]
    rfl
  unfold rowMaxima
  rw [maximumf_apply]
  exact (congrArg (max _) hfold).trans (max_fold_max_self _ _ _)

/-- A per-node vector made a column and repeated along the classes reads, at `(r, c)`, the vector's entry `r`. -/
theorem alongClasses_column_apply (v : FVec Ideal S100000 .f32) (r : Fin 100000) (c : Fin 40) :
    alongClasses (F := Ideal) (broadcastInDim S100000x1 ![0] bcast_S100000_S100000x1_0 v) (ix2 r c) = v (ix1 r) :=
  (broadcastInDim_apply _ bcast_S100000x1_S100000x40_0_1 (broadcastInDim S100000x1 ![0] bcast_S100000_S100000x1_0 v) (ix2 r c)
      (ix2 r (0 : Fin 1)) (fun ax => match ax with
    | ⟨0, _⟩ => by show r.val = if (100000 : Nat) = 1 then 0 else r.val; rw [if_neg (by decide)]
    | ⟨1, _⟩ => by show 0 = if (1 : Nat) = 1 then 0 else c.val; rw [if_pos rfl])).trans
  (broadcastInDim_apply _ bcast_S100000_S100000x1_0 v (ix2 r (0 : Fin 1)) (ix1 r) (fun ax => match ax with
    | ⟨0, _⟩ => by show r.val = if (100000 : Nat) = 1 then 0 else r.val; rw [if_neg (by decide)]))

/-- The shifted logit at `(r, c)`: the logit minus its row's maximum. -/
theorem shifted_apply (L : FVec Ideal S100000x40 .f32) (r : Fin 100000) (c : Fin 40) :
    shifted (F := Ideal) L (ix2 r c) = L (ix2 r c) - rowMax (fun d => L (ix2 r d)) := by
  unfold shifted
  rw [subf_apply, alongClasses_column_apply, rowMaxima_apply]

/-- The host's sum along the classes, from the float zero, at node `r`: the sum of the row. -/
theorem rowSums_apply (E : FVec Ideal S100000x40 .f32) (r : Fin 100000) :
    Host.reduceAdd (F := Ideal) E (constant (F := Ideal) S_ .f32 0x00000000#32) reducesTo_S100000x40_S100000_d1 h_S_ (ix1 r)
      = ∑ c : Fin 40, E (ix2 r c) := by
  have hR : S100000x40.Reduces [1] S100000 := by decide
  simp only [Host.reduceAdd, Ideal.hostReduceAdd_def]
  rw [Ideal.hostReduceAdd_single reducesTo_S100000x40_S100000_d1 hR]
  show Ideal.ofBits .f32 0x00000000#32 + _ = _
  rw [Ideal.ofBits_zero_f32, zero_add]
  exact Finset.sum_congr rfl fun k _ => congrArg E (lift_class hR r k)

/-- The logarithm of a per-node vector, taken on the column and repeated along the classes, reads at `(r, c)` the
    logarithm of the vector's entry `r` (stated for a variable vector). -/
theorem alongClasses_log_column_apply (v : FVec Ideal S100000 .f32) (r : Fin 100000) (c : Fin 40) :
    alongClasses (F := Ideal) (Host.log (F := Ideal) (broadcastInDim S100000x1 ![0] bcast_S100000_S100000x1_0 v)) (ix2 r c)
      = Ideal.log (v (ix1 r)) := by
  unfold alongClasses
  refine (broadcastInDim_apply _ bcast_S100000x1_S100000x40_0_1
    (Host.log (F := Ideal) (broadcastInDim S100000x1 ![0] bcast_S100000_S100000x1_0 v)) (ix2 r c) (ix2 r (0 : Fin 1))
    (fun ax => match ax with
      | ⟨0, _⟩ => by show r.val = if (100000 : Nat) = 1 then 0 else r.val; rw [if_neg (by decide)]
      | ⟨1, _⟩ => by show 0 = if (1 : Nat) = 1 then 0 else c.val; rw [if_pos rfl])).trans ?_
  show Ideal.log (broadcastInDim S100000x1 ![0] bcast_S100000_S100000x1_0 v (ix2 r (0 : Fin 1))) = _
  exact congrArg Ideal.log (broadcastInDim_apply _ bcast_S100000_S100000x1_0 v (ix2 r (0 : Fin 1)) (ix1 r) (fun ax => match ax with
    | ⟨0, _⟩ => by show r.val = if (100000 : Nat) = 1 then 0 else r.val; rw [if_neg (by decide)]))

/-- LOG-SOFTMAX ALONG THE CLASSES at `(r, c)` is the log-softmax, at `c`, of row `r`. -/
theorem logSoftmaxRows_apply (L : FVec Ideal S100000x40 .f32) (r : Fin 100000) (c : Fin 40) :
    logSoftmaxRows (F := Ideal) L (ix2 r c) = logSoftmax (fun d => L (ix2 r d)) c := by
  unfold logSoftmaxRows
  rw [subf_apply, alongClasses_log_column_apply, rowSums_apply, shifted_apply]
  unfold logSoftmax
  refine congrArg (fun s => L (ix2 r c) - rowMax (fun d => L (ix2 r d)) - Ideal.log s) (Finset.sum_congr rfl fun d _ => ?_)
  show Ideal.exp (shifted (F := Ideal) L (ix2 r d)) = _
  rw [shifted_apply]

/-- THE REFERENCE'S RESULT is the head function of the propagated features, the transposed weights and the bias. -/
theorem result_eq_head (x0 : (⟨S100000x64, .f32⟩ : BufTy).Contents (Elt Ideal)) (x1 : (⟨S2x1200000, .i32⟩ : BufTy).Contents (Elt Ideal))
    (x2 : (⟨S40x64, .f32⟩ : BufTy).Contents (Elt Ideal)) (x3 : (⟨S40, .f32⟩ : BufTy).Contents (Elt Ideal)) :
    result (F := Ideal) x0 x1 x2 x3
      = head (propagated (F := Ideal) x0 x1) (weightsT (F := Ideal) x2) (fun d => x3 (ix1 d)) := by
  funext i
  obtain ⟨r, c, rfl⟩ : ∃ (r : Fin 100000) (c : Fin 40), i = ix2 r c := ⟨i 0, i 1, eq_ix2 i⟩
  unfold result
  rw [logSoftmaxRows_apply]
  exact congrArg (fun L => logSoftmax L c) (funext fun d => logits_apply _ _ x3 r d)

end Cert.ReferenceIdeal.RefHead

end
-- ==== Proof.lean ====
/-
  The certificate: a two-hop graph convolution followed by a linear classification head with log-softmax, computed by a
  kernel (the head) after host operations (the propagation), against the same network written with jnp.

  Over the extended reals both programs compute ONE function of their four arrays. The two propagation hops are the same
  host operations in both programs. The head is, for node `r` and class `c`, the log-softmax at `c` of the row of logits
  `Σ_k xp(r, k) · Wᵀ(k, c) + b(c)` (`Cert.HeadSpec.head`). The kernel computes it ten blocks of 10000 nodes at a time — the
  conversions of its matrix product's operands to bf16 are the identity on extended reals, and its lane maximum and lane
  sum are the row's fold of `max` from −∞ and the row's sum; the reference computes it with one matrix product over all
  nodes and jnp's log-softmax, whose row maximum takes one more maximum with −∞, which changes nothing. No step uses that
  the inputs are finite.

  The three frames: the kernel's two are the generated frame runs; the reference's is its run read back, with the result
  dropped. The idealization rewrote no operation, so `preserves` is trivial. `algebraic`: both runs end with the result
  array at `head` of the propagated features, the transposed weights and the bias of the common arguments.
-/
import proofs.«119533_j84035330114212_1_alg».proof.Defs
import proofs.«119533_j84035330114212_1_alg».proof.Proof.Gen.Kernel
import proofs.«119533_j84035330114212_1_alg».proof.Proof.Gen.Kernel.Frame
import proofs.«119533_j84035330114212_1_alg».proof.Proof.Gen.KernelIdeal
import proofs.«119533_j84035330114212_1_alg».proof.Proof.Gen.KernelIdeal.Frame
import proofs.«119533_j84035330114212_1_alg».proof.Proof.Gen.KernelIdeal.Value
import proofs.«119533_j84035330114212_1_alg».proof.Proof.Gen.ReferenceIdeal
import proofs.«119533_j84035330114212_1_alg».proof.Proof.Gen.Pre_finite_inputs
import proofs.«119533_j84035330114212_1_alg».proof.Proof.KernelMeetsRef
import proofs.«119533_j84035330114212_1_alg».proof.Proof.RefHead
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments unchanged: the generated frame. -/
theorem frame_kernel : Cert.frame_Kernel := fun m ρ _ => Cert.Kernel.Gen.frame m ρ

/-- So does its idealization: the generated frame. -/
theorem frame_kernelIdeal : Cert.frame_KernelIdeal := fun m ρ _ => Cert.KernelIdeal.Gen.frame m ρ

/-- The reference runs and leaves its arguments unchanged: its run read back, the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories that agree on the four arguments, both idealized programs end with the result array at the head
    function of the propagated features, the transposed weights and the bias: the kernel's ten blocks cover it
    (`array_eq_head`, `region_head`), and the reference's stages read index by index are it (`result_eq_head`). -/
theorem algebraic : Cert.algebraic_KernelIdeal_ReferenceIdeal := by
  intro m ρ m' ρ' _ hagree
  refine ⟨fun c => Cert.HeadSpec.head
      (Cert.ReferenceIdeal.HandRun.propagated (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.ReferenceIdeal.HandRun.weightsT (F := Ideal)
        (m ((c.tc : Thread Cert.KernelIdeal.nD Cert.KernelIdeal.τ).loc Cert.KernelIdeal.main_arg2)))
      (fun d => (m ((c.tc : Thread Cert.KernelIdeal.nD Cert.KernelIdeal.τ).loc Cert.KernelIdeal.main_arg3)
        : (⟨1, ![40]⟩ : Shape).Idx → EReal) (ix1 d)), ?_, ?_⟩
  · refine (θ_run Cert.KernelIdeal.defs _ _).mono (fun r h c => ⟨(h c).1.trans ?_, (h c).2⟩)
      (Cert.KernelIdeal.Value.run_blocks m ρ)
    rw [Cert.KernelIdeal.ArrayValue.array_eq_head]
    exact Cert.KernelIdeal.MeetsRef.region_head m c
  · refine (θ_run Cert.ReferenceIdeal.defs _ _).mono (fun _ h c => ⟨(h c).1.trans ?_, (h c).2⟩)
      (Cert.ReferenceIdeal.HandRun.run (F := Ideal) m' ρ')
    rw [Cert.ReferenceIdeal.RefHead.result_eq_head, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
